-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S2000x256 : Shape := ⟨2, ![2000, 256]⟩
abbrev S850000x128 : Shape := ⟨2, ![850000, 128]⟩
abbrev S1x128 : Shape := ⟨2, ![1, 128]⟩

abbrev nBuf : Space → Nat
  | .hbm => 100
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x256, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S1x256, .f32⟩
  | .hbm, ⟨65, _⟩ => ⟨S1x256, .f32⟩
  | .hbm, ⟨66, _⟩ => ⟨S_, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S_, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S50000x256, .f32⟩
  | .hbm, ⟨80, _⟩ => ⟨S50000x128, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .f32⟩
  | .hbm, ⟨90, _⟩ => ⟨S850000x1, .f32⟩
  | .hbm, ⟨91, _⟩ => ⟨S850000x128, .f32⟩
  | .hbm, ⟨92, _⟩ => ⟨S850000x128, .f32⟩
  | .hbm, ⟨93, _⟩ => ⟨S_, .f32⟩
  | .hbm, ⟨94, _⟩ => ⟨S50000x128, .f32⟩
  | .hbm, ⟨95, _⟩ => ⟨S850000x1, .i32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S5000x256, .f32⟩
  | .local _ .vmem, ⟨18, _⟩ => ⟨S5000x256, .f32⟩
  | .local _ .vmem, ⟨19, _⟩ => ⟨S256x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S1x256_S1x256_0_0 : ∀ a, (![0, 0] : Fin 2 → Nat) a + S1x256.size a ≤ S1x256.size a
  h_S1x256 : 0 < S1x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S1x256_S1x256 : S1x256.ShapeCasts S1x256
  reduces_S2000x256_S256 : S2000x256.Reduces [0] S256
  shapeCasts_S256_S1x256 : S256.ShapeCasts S1x256
  bcast_S_S1x256 : S_.BroadcastsInDim S1x256 (![] : Fin 0 → Fin S1x256.rank)
  broadcasts_S1x256_S2000x256 : S1x256.Broadcasts S2000x256
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x256, .f32⟩
  | 54 => ⟨S850000x1, .f32⟩
  | 55 => ⟨S850000x256, .f32⟩
  | 56 => ⟨S850000x256, .f32⟩
  | 57 => ⟨S_, .f32⟩
  | 58 => ⟨S50000x256, .f32⟩
  | 59 => ⟨S850000x1, .i32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S256, .f32⟩
  | 66 => ⟨S_, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S50000x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x128, .f32⟩
  | 98 => ⟨S50000, .i32⟩
  | 99 => ⟨S850000, .i32⟩
  | 100 => ⟨S850000, .i32⟩
  | 101 => ⟨S_, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000, .f32⟩
  | 1 => ⟨S850000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x128, .f32⟩
  | 11 => ⟨S850000x1, .f32⟩
  | 12 => ⟨S850000x128, .f32⟩
  | 13 => ⟨S850000x128, .f32⟩
  | 14 => ⟨S_, .f32⟩
  | 15 => ⟨S50000x128, .f32⟩
  | 16 => ⟨S850000x1, .i32⟩
  | 17 => ⟨S50000x128, .f32⟩
  | 18 => ⟨S1x128, .f32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call0_cst : Ref sig .tc := ⟨.hbm, 94, rfl⟩
abbrev main_call0_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_18 : Ref sig .tc := ⟨.hbm, 120, rfl⟩
abbrev main_v90 : Ref sig .tc := ⟨.hbm, 121, rfl⟩
abbrev main_v91 : Ref sig .tc := ⟨.hbm, 122, rfl⟩
abbrev main_c_19 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_20 : Ref sig .tc := ⟨.hbm, 130, rfl⟩
abbrev main_v98 : Ref sig .tc := ⟨.hbm, 131, rfl⟩
abbrev main_v99 : Ref sig .tc := ⟨.hbm, 132, rfl⟩
abbrev main_c_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_22 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KHost.lean ====
import proofs.«116100_j7851200217412_2_alg».proof.Proof.Gen.KernelIdeal.Frame
import proofs.«116100_j7851200217412_2_alg».proof.Proof.Gen.ReferenceIdeal.Read
import Idealize.ShloMosaic.Lib.StableHlo.Run

set_option maxRecDepth 16384

/-!
  The host stretches of the kernel program, each read as a function of the buffers it starts from. The stretches are
  the same chains of gathers, scatters and pointwise operations that the reference program applies, so each result
  is stated as the reference's stage of the same name applied to the stretch's inputs.
-/

noncomputable section

namespace Cert.KernelIdeal.Gen

open Idealize.ShloMosaic Idealize.ShloMosaic.TcCoe Idealize.SL.Sem Idealize.ShloMosaic.StableHlo

variable {F : FTy → Type} [FloatOps F]

/-- The source indices with the self loops appended: the first row of the edge array followed by 0 … N−1. -/
theorem host0_v5 (W : Valuation τ sig (Elt F)) :
    StableHlo.after hostOps0 W (Proc.devRef .tc main_v5)
      = Cert.ReferenceIdeal.Read.val_main_v6 (F := F) (W (Proc.devRef .tc main_arg1)) := by
  after_results <;> rfl

/-- The destination indices with the self loops appended. -/
theorem host0_v6 (W : Valuation τ sig (Elt F)) :
    StableHlo.after hostOps0 W (Proc.devRef .tc main_v6)
      = Cert.ReferenceIdeal.Read.val_main_v7 (F := F) (W (Proc.devRef .tc main_arg1)) := by
  after_results <;> rfl

set_option maxHeartbeats 4000000 in
/-- The edge normalization: the reciprocal square roots of the clamped degrees at the two ends of each edge, multiplied. -/
theorem host0_v28 (W : Valuation τ sig (Elt F)) :
    StableHlo.after hostOps0 W (Proc.devRef .tc main_v28)
      = Cert.ReferenceIdeal.Read.val_main_v29 (F := F) (W (Proc.devRef .tc main_arg1)) := by
  after_results_simp <;> rfl

set_option maxHeartbeats 4000000 in
/-- The first aggregated layer: the region's product gathered along the source indices, scaled by the edge
    normalization, summed into the destination rows, plus the bias. -/
theorem host1_v45 (W : Valuation τ sig (Elt F)) (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x256, .f32⟩ : BufTy).Contents (Elt F)) (x3 : (⟨Cert.ReferenceIdeal.S256, .f32⟩ : BufTy).Contents (Elt F))
    (h29 : W (Proc.devRef .tc main_v29) = Cert.ReferenceIdeal.Read.val_main_v4 (F := F) x0 x2)
    (h5 : W (Proc.devRef .tc main_v5) = Cert.ReferenceIdeal.Read.val_main_v6 (F := F) x1)
    (h6 : W (Proc.devRef .tc main_v6) = Cert.ReferenceIdeal.Read.val_main_v7 (F := F) x1)
    (h28 : W (Proc.devRef .tc main_v28) = Cert.ReferenceIdeal.Read.val_main_v29 (F := F) x1)
    (h3 : W (Proc.devRef .tc main_arg3) = x3) :
    StableHlo.after hostOps1 W (Proc.devRef .tc main_v45) = Cert.ReferenceIdeal.Read.val_main_v45 (F := F) x0 x1 x2 x3 := by
  after_results_simp
  rw [h29, h5, h6, h28, h3]
  rfl

/-- The mean: the column sums divided by the number of rows. -/
theorem host2_v48 (W : Valuation τ sig (Elt F)) :
    StableHlo.after hostOps2 W (Proc.devRef .tc main_v48)
      = Host.divf (W (Proc.devRef .tc main_v46_0) : (⟨S1x256, .f32⟩ : BufTy).Contents (Elt F))
          (broadcastInDim S1x256 ![] bcast_S_S1x256 (constant (F := F) S_ .f32 0x47435000#32)) := by
  after_results <;> rfl

/-- The one-pass variance, clamped at zero: the mean of the squares minus the square of the mean. -/
theorem host2_v54 (W : Valuation τ sig (Elt F)) :
    StableHlo.after hostOps2 W (Proc.devRef .tc main_v54)
      = maximumf (subf (Host.divf (W (Proc.devRef .tc main_v46_1) : (⟨S1x256, .f32⟩ : BufTy).Contents (Elt F))
              (broadcastInDim S1x256 ![] bcast_S_S1x256 (constant (F := F) S_ .f32 0x47435000#32)))
            (mulf (Host.divf (W (Proc.devRef .tc main_v46_0) : (⟨S1x256, .f32⟩ : BufTy).Contents (Elt F))
                (broadcastInDim S1x256 ![] bcast_S_S1x256 (constant (F := F) S_ .f32 0x47435000#32)))
              (Host.divf (W (Proc.devRef .tc main_v46_0) : (⟨S1x256, .f32⟩ : BufTy).Contents (Elt F))
                (broadcastInDim S1x256 ![] bcast_S_S1x256 (constant (F := F) S_ .f32 0x47435000#32)))))
          (broadcastInDim S1x256 ![] bcast_S_S1x256 (constant (F := F) S_ .f32 0x00000000#32)) := by
  after_results <;> rfl

/-- The scale as a one-row matrix. -/
theorem host2_v55 (W : Valuation τ sig (Elt F)) :
    StableHlo.after hostOps2 W (Proc.devRef .tc main_v55)
      = shapeCast S1x256 (W (Proc.devRef .tc main_arg4) : (⟨S256, .f32⟩ : BufTy).Contents (Elt F)) shapeCasts_S256_S1x256 := by
  after_results <;> rfl

/-- The shift as a one-row matrix. -/
theorem host2_v56 (W : Valuation τ sig (Elt F)) :
    StableHlo.after hostOps2 W (Proc.devRef .tc main_v56)
      = shapeCast S1x256 (W (Proc.devRef .tc main_arg5) : (⟨S256, .f32⟩ : BufTy).Contents (Elt F)) shapeCasts_S256_S1x256 := by
  after_results <;> rfl

set_option maxHeartbeats 4000000 in
/-- The second aggregated layer, the program's result: the second product gathered, scaled, summed and shifted as the
    first one was. -/
theorem host4_v74 (W : Valuation τ sig (Elt F)) (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x256, .f32⟩ : BufTy).Contents (Elt F)) (x3 : (⟨Cert.ReferenceIdeal.S256, .f32⟩ : BufTy).Contents (Elt F)) (x4 x5 : (⟨Cert.ReferenceIdeal.S256, .f32⟩ : BufTy).Contents (Elt F)) (x6 : (⟨Cert.ReferenceIdeal.S256x128, .f32⟩ : BufTy).Contents (Elt F)) (x7 : (⟨Cert.ReferenceIdeal.S128, .f32⟩ : BufTy).Contents (Elt F))
    (h58 : W (Proc.devRef .tc main_v58) = Cert.ReferenceIdeal.Read.val_main_v72 (F := F) x0 x1 x2 x3 x4 x5 x6)
    (h5 : W (Proc.devRef .tc main_v5) = Cert.ReferenceIdeal.Read.val_main_v6 (F := F) x1)
    (h6 : W (Proc.devRef .tc main_v6) = Cert.ReferenceIdeal.Read.val_main_v7 (F := F) x1)
    (h28 : W (Proc.devRef .tc main_v28) = Cert.ReferenceIdeal.Read.val_main_v29 (F := F) x1)
    (h7 : W (Proc.devRef .tc main_arg7) = x7) :
    StableHlo.after hostOps4 W (Proc.devRef .tc main_v74) = Cert.ReferenceIdeal.Read.val_main_v113 (F := F) x0 x1 x2 x3 x4 x5 x6 x7 := by
  after_results_simp
  rw [h58, h5, h6, h28, h7]
  rfl

end Cert.KernelIdeal.Gen

end
-- ==== Proof.Basics.lean ====
import Idealize.ShloMosaic.PureOps.Ideal
import Idealize.ShloMosaic.Lib.ValueIdx

noncomputable section

namespace Cert.Bridge

open Idealize.ShloMosaic

/-- Every entry of the array is a real number: neither infinity occurs in it. -/
def IsReal {S : Shape} (v : S.Idx → EReal) : Prop := ∀ i, ∃ r : ℝ, v i = (r : EReal)

end Cert.Bridge

end
-- ==== Proof.MatmulBlocks.lean ====
import proofs.«116100_j7851200217412_2_alg».proof.Proof.Gen.KernelIdeal.Frame
import proofs.«116100_j7851200217412_2_alg».proof.Proof.Gen.ReferenceIdeal
import proofs.«116100_j7851200217412_2_alg».proof.Proof.Basics
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Bridge

open Cert.KernelIdeal Cert.KernelIdeal.Gen

namespace Matmul

/-- A plain rows-by-columns contraction, re-indexed by its one contraction coordinate: when the left operand is read at
    (row of the result, k) and the right operand at (k, column of the result), the sum over the contraction index set
    is the sum over k below the inner extent. -/
theorem sum_contr {R K M : Nat} (d : DotDims ⟨2, ![R, K]⟩ ⟨2, ![K, M]⟩ ⟨2, ![R, M]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : (⟨2, ![R, K]⟩ : Shape).Idx → EReal) (w : (⟨2, ![K, M]⟩ : Shape).Idx → EReal) (p : Fin R) (q : Fin M) :
    ∑ k : d.contr.Idx, x (d.lhsIdx (ix2 p q) k) * w (d.rhsIdx (ix2 p q) k) = ∑ k : Fin K, x (ix2 p k) * w (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

variable (V : (c : Dev nD) → (b : Ref sig .tc) → Buf (Elt Ideal) ((c : Thread nD τ).loc b))

/-- A whole block is accessed at offset zero on both axes. -/
theorem hz : (![0, 0] : Fin 2 → Nat) = fun _ => 0 := funext fun a => by fin_cases a <;> rfl

/-! ### The first product: each 5000-row block of the 50000 × 128 array times the whole 128 × 256 matrix -/

/-- The operands' indices in a block's product at result index j and contraction index k: the left operand is read at
    (j₀, k), the right one at (k, j₁). -/
theorem blk0_lhs0 (j : S5000x256.Idx) (k : dot_S5000x128_S128x256_S5000x256_1_0_0_1_n_n.contr.Idx) :
    (dot_S5000x128_S128x256_S5000x256_1_0_0_1_n_n.lhsIdx j k 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem blk0_lhs1 (j : S5000x256.Idx) (k : dot_S5000x128_S128x256_S5000x256_1_0_0_1_n_n.contr.Idx) :
    (dot_S5000x128_S128x256_S5000x256_1_0_0_1_n_n.lhsIdx j k 1).val = (k ⟨0, by decide⟩).val :=
  dot_S5000x128_S128x256_S5000x256_1_0_0_1_n_n.lhsIdx_val_of_single rfl j k
theorem blk0_rhs0 (j : S5000x256.Idx) (k : dot_S5000x128_S128x256_S5000x256_1_0_0_1_n_n.contr.Idx) :
    (dot_S5000x128_S128x256_S5000x256_1_0_0_1_n_n.rhsIdx j k 0).val = (k ⟨0, by decide⟩).val :=
  dot_S5000x128_S128x256_S5000x256_1_0_0_1_n_n.rhsIdx_val_of_single rfl j k
theorem blk0_rhs1 (j : S5000x256.Idx) (k : dot_S5000x128_S128x256_S5000x256_1_0_0_1_n_n.contr.Idx) :
    (dot_S5000x128_S128x256_S5000x256_1_0_0_1_n_n.rhsIdx j k 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- What one grid point computes, entry by entry: row p of the left block against column q of the right matrix
    (the narrowing of the operands is the identity on extended reals, and the accumulator starts at zero). -/
theorem blk0_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  refine (Ideal.matmul_constant_zero_apply dot_S5000x128_S128x256_S5000x256_1_0_0_1_n_n none _ _ (ix2 p q)).trans ?_
  exact sum_contr dot_S5000x128_S128x256_S5000x256_1_0_0_1_n_n rfl rfl blk0_lhs0 blk0_lhs1 blk0_rhs0 blk0_rhs1 x0 x1 p q

/-- The same for the product of the whole arrays. -/
theorem arr0_lhs0 (j : S50000x256.Idx) (k : Cert.ReferenceIdeal.dot_S50000x128_S128x256_S50000x256_1_0_0_1_n_n.contr.Idx) :
    (Cert.ReferenceIdeal.dot_S50000x128_S128x256_S50000x256_1_0_0_1_n_n.lhsIdx j k 0).val = (j 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem arr0_lhs1 (j : S50000x256.Idx) (k : Cert.ReferenceIdeal.dot_S50000x128_S128x256_S50000x256_1_0_0_1_n_n.contr.Idx) :
    (Cert.ReferenceIdeal.dot_S50000x128_S128x256_S50000x256_1_0_0_1_n_n.lhsIdx j k 1).val = (k ⟨0, by decide⟩).val :=
  Cert.ReferenceIdeal.dot_S50000x128_S128x256_S50000x256_1_0_0_1_n_n.lhsIdx_val_of_single rfl j k
theorem arr0_rhs0 (j : S50000x256.Idx) (k : Cert.ReferenceIdeal.dot_S50000x128_S128x256_S50000x256_1_0_0_1_n_n.contr.Idx) :
    (Cert.ReferenceIdeal.dot_S50000x128_S128x256_S50000x256_1_0_0_1_n_n.rhsIdx j k 0).val = (k ⟨0, by decide⟩).val :=
  Cert.ReferenceIdeal.dot_S50000x128_S128x256_S50000x256_1_0_0_1_n_n.rhsIdx_val_of_single rfl j k
theorem arr0_rhs1 (j : S50000x256.Idx) (k : Cert.ReferenceIdeal.dot_S50000x128_S128x256_S50000x256_1_0_0_1_n_n.contr.Idx) :
    (Cert.ReferenceIdeal.dot_S50000x128_S128x256_S50000x256_1_0_0_1_n_n.rhsIdx j k 1).val = (j 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- The host's product of the whole arrays, entry by entry. -/
theorem arr0_apply (X : S50000x128.Idx → EReal) (W : S128x256.Idx → EReal) (r : Fin 50000) (q : Fin 256) :
    Host.dotGeneral (F := Ideal) (φ₁ := .f32) (φ₂ := .f32) Cert.ReferenceIdeal.dot_S50000x128_S128x256_S50000x256_1_0_0_1_n_n none X W (ix2 r q)
      = ∑ k : Fin 128, X (ix2 r k) * W (ix2 k q) := by
  refine (Ideal.dotGeneral_apply Cert.ReferenceIdeal.dot_S50000x128_S128x256_S50000x256_1_0_0_1_n_n none .single X W (ix2 r q)).trans ?_
  exact sum_contr Cert.ReferenceIdeal.dot_S50000x128_S128x256_S50000x256_1_0_0_1_n_n rfl rfl arr0_lhs0 arr0_lhs1 arr0_rhs0 arr0_rhs1 X W r q

/-- The windows' block indices over the ten grid points: point t takes row block t of the left array and of the
    result, and the one block of the right array. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row block t of the left array read at (p, k) is the array's row 5000·t + p at column k. -/
theorem lhs_blk0 (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → EReal) (ix2 r k) := by
  obtain ⟨e0, e1, -⟩ := idx0 t
  unfold iblk0
  rw [View.read_apply]
  show V c main_arg0 (((cfg0.win 0).blk t).view.emb (ix2 p k)) = V c main_arg0 (ix2 r k)
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's block of the right array is the whole array. -/
theorem rhs_blk0 (c : Dev nD) (t : Fin cfg0.N) (k : Fin 128) (q : Fin 256) :
    (iblk0 V c 1 t : Vec Ideal S128x256 .f32) (ix2 k q) = (V c main_arg2 : S128x256.Idx → EReal) (ix2 k q) := by
  obtain ⟨-, -, e2, e3, -⟩ := idx0 t
  unfold iblk0
  rw [View.read_apply]
  show V c main_arg2 (((cfg0.win 1).blk t).view.emb (ix2 k q)) = V c main_arg2 (ix2 k q)
  congr 1
  funext a; apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- Entry (p, q) of point t's result block sits at row 5000·t + p, column q of the result array. -/
theorem out_blk0 (t : Fin cfg0.N) (p : Fin 5000) (q : Fin 256) (r : Fin 50000) (hr : r.val = 5000 * t.val + p.val) :
    ((cfg0.win 2).blk t).view.emb (ix2 p q) = (ix2 r q : S50000x256.Idx) := by
  obtain ⟨-, -, -, -, e4, e5⟩ := idx0 t
  funext a; apply Fin.ext
  match a with
  | ⟨0, _⟩ => show win0_2.index t (0 : Fin 2) * 5000 + 1 * p.val = r.val; rw [e4, hr]; omega
  | ⟨1, _⟩ => show win0_2.index t (1 : Fin 2) * 256 + 1 * q.val = q.val; rw [e5]; omega

/-- What point t writes back is block t of the product of the whole arrays: entry (p, q) of the block is the sum over k
    of the left array's (5000·t + p, k) times the right array's (k, q), which is the product's entry (5000·t + p, q). -/
theorem flushed0 (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x128_S128x256_S50000x256_1_0_0_1_n_n none
          (V c main_arg0 : S50000x128.Idx → EReal) (V c main_arg2 : S128x256.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  funext j
  obtain ⟨p, q, rfl⟩ : ∃ (p : Fin 5000) (q : Fin 256), j = ix2 p q := ⟨j 0, j 1, eq_ix2 j⟩
  have ht : t.val < 10 := by have h := t.isLt; have hN : cfg0.N = 10 := N_0; omega
  rw [View.read_apply, out_blk0 t p q ⟨5000 * t.val + p.val, by omega⟩ rfl, arr0_apply]
  refine (blk0_apply (iblk0 V c 0 t) (iblk0 V c 1 t) p q).trans ?_
  refine Finset.sum_congr rfl fun k _ => ?_
  rw [lhs_blk0 V c t p k ⟨5000 * t.val + p.val, by omega⟩ rfl, rhs_blk0 V c t k q]

/-- An index of the result array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v29).slice (win0_2.rect t)).set ↔ _
  rw [View.set_slice_whole, Rect.mem_set_unit]
  exact Iff.rfl

/-- The ten row blocks fill the result array: row r lies in the block of point r / 5000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 256 ≤ (i 1).val ∧ (i 1).val < win0_2.index t (1 : Fin 2) * 256 + 256; rw [e5]; omega

/-! ### The second product: each 5000-row block of the 50000 × 256 array times the whole 256 × 128 matrix -/

/-- The operands' indices in a block's product at result index j and contraction index k: the left operand is read at
    (j₀, k), the right one at (k, j₁). -/
theorem blk3_lhs0 (j : S5000x128.Idx) (k : dot_S5000x256_S256x128_S5000x128_1_0_0_1_n_n.contr.Idx) :
    (dot_S5000x256_S256x128_S5000x128_1_0_0_1_n_n.lhsIdx j k 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk3_lhs1 (j : S5000x128.Idx) (k : dot_S5000x256_S256x128_S5000x128_1_0_0_1_n_n.contr.Idx) :
    (dot_S5000x256_S256x128_S5000x128_1_0_0_1_n_n.lhsIdx j k 1).val = (k ⟨0, by decide⟩).val :=
  dot_S5000x256_S256x128_S5000x128_1_0_0_1_n_n.lhsIdx_val_of_single rfl j k
theorem blk3_rhs0 (j : S5000x128.Idx) (k : dot_S5000x256_S256x128_S5000x128_1_0_0_1_n_n.contr.Idx) :
    (dot_S5000x256_S256x128_S5000x128_1_0_0_1_n_n.rhsIdx j k 0).val = (k ⟨0, by decide⟩).val :=
  dot_S5000x256_S256x128_S5000x128_1_0_0_1_n_n.rhsIdx_val_of_single rfl j k
theorem blk3_rhs1 (j : S5000x128.Idx) (k : dot_S5000x256_S256x128_S5000x128_1_0_0_1_n_n.contr.Idx) :
    (dot_S5000x256_S256x128_S5000x128_1_0_0_1_n_n.rhsIdx j k 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What one grid point computes, entry by entry: row p of the left block against column q of the right matrix
    (the narrowing of the operands is the identity on extended reals, and the accumulator starts at zero). -/
theorem blk3_apply (x0 : Vec Ideal S5000x256 .f32) (x1 : Vec Ideal S256x128 .f32) (p : Fin 5000) (q : Fin 128) :
    k3_pay1 (F := Ideal) x0 x1 (ix2 p q) = ∑ k : Fin 256, x0 (ix2 p k) * x1 (ix2 k q) := by
  unfold k3_pay1
  rw [shapeCast_self]
  refine (Ideal.matmul_constant_zero_apply dot_S5000x256_S256x128_S5000x128_1_0_0_1_n_n none _ _ (ix2 p q)).trans ?_
  exact sum_contr dot_S5000x256_S256x128_S5000x128_1_0_0_1_n_n rfl rfl blk3_lhs0 blk3_lhs1 blk3_rhs0 blk3_rhs1 x0 x1 p q

/-- The same for the product of the whole arrays. -/
theorem arr3_lhs0 (j : S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem arr3_lhs1 (j : S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k
theorem arr3_rhs0 (j : S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k
theorem arr3_rhs1 (j : S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The host's product of the whole arrays, entry by entry. -/
theorem arr3_apply (X : S50000x256.Idx → EReal) (W : S256x128.Idx → EReal) (r : Fin 50000) (q : Fin 128) :
    Host.dotGeneral (F := Ideal) (φ₁ := .f32) (φ₂ := .f32) Cert.ReferenceIdeal.dot_S50000x256_S256x128_S50000x128_1_0_0_1_n_n none X W (ix2 r q)
      = ∑ k : Fin 256, X (ix2 r k) * W (ix2 k q) := by
  refine (Ideal.dotGeneral_apply Cert.ReferenceIdeal.dot_S50000x256_S256x128_S50000x128_1_0_0_1_n_n none .single X W (ix2 r q)).trans ?_
  exact sum_contr Cert.ReferenceIdeal.dot_S50000x256_S256x128_S50000x128_1_0_0_1_n_n rfl rfl arr3_lhs0 arr3_lhs1 arr3_rhs0 arr3_rhs1 X W r q

/-- The windows' block indices over the ten grid points: point t takes row block t of the left array and of the
    result, and the one block of the right array. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Row block t of the left array read at (p, k) is the array's row 5000·t + p at column k. -/
theorem lhs_blk3 (c : Dev nD) (t : Fin cfg3.N) (p : Fin 5000) (k : Fin 256) (r : Fin 50000) (hr : r.val = 5000 * t.val + p.val) :
    (iblk3 V c 0 t : Vec Ideal S5000x256 .f32) (ix2 p k) = (V c main_v57 : S50000x256.Idx → EReal) (ix2 r k) := by
  obtain ⟨e0, e1, -⟩ := idx3 t
  unfold iblk3
  rw [View.read_apply]
  show V c main_v57 (((cfg3.win 0).blk t).view.emb (ix2 p k)) = V c main_v57 (ix2 r k)
  congr 1
  funext a; apply Fin.ext
  match a with
  | ⟨0, _⟩ => show win3_0.index t (0 : Fin 2) * 5000 + 1 * p.val = r.val; rw [e0, hr]; omega
  | ⟨1, _⟩ => show win3_0.index t (1 : Fin 2) * 256 + 1 * k.val = k.val; rw [e1]; omega

/-- Every point's block of the right array is the whole array. -/
theorem rhs_blk3 (c : Dev nD) (t : Fin cfg3.N) (k : Fin 256) (q : Fin 128) :
    (iblk3 V c 1 t : Vec Ideal S256x128 .f32) (ix2 k q) = (V c main_arg6 : S256x128.Idx → EReal) (ix2 k q) := by
  obtain ⟨-, -, e2, e3, -⟩ := idx3 t
  unfold iblk3
  rw [View.read_apply]
  show V c main_arg6 (((cfg3.win 1).blk t).view.emb (ix2 k q)) = V c main_arg6 (ix2 k q)
  congr 1
  funext a; apply Fin.ext
  match a with
  | ⟨0, _⟩ => show win3_1.index t (0 : Fin 2) * 256 + 1 * k.val = k.val; rw [e2]; omega
  | ⟨1, _⟩ => show win3_1.index t (1 : Fin 2) * 128 + 1 * q.val = q.val; rw [e3]; omega

/-- Entry (p, q) of point t's result block sits at row 5000·t + p, column q of the result array. -/
theorem out_blk3 (t : Fin cfg3.N) (p : Fin 5000) (q : Fin 128) (r : Fin 50000) (hr : r.val = 5000 * t.val + p.val) :
    ((cfg3.win 2).blk t).view.emb (ix2 p q) = (ix2 r q : S50000x128.Idx) := by
  obtain ⟨-, -, -, -, e4, e5⟩ := idx3 t
  funext a; apply Fin.ext
  match a with
  | ⟨0, _⟩ => show win3_2.index t (0 : Fin 2) * 5000 + 1 * p.val = r.val; rw [e4, hr]; omega
  | ⟨1, _⟩ => show win3_2.index t (1 : Fin 2) * 128 + 1 * q.val = q.val; rw [e5]; omega

/-- What point t writes back is block t of the product of the whole arrays: entry (p, q) of the block is the sum over k
    of the left array's (5000·t + p, k) times the right array's (k, q), which is the product's entry (5000·t + p, q). -/
theorem flushed3 (c : Dev nD) (t : Fin cfg3.N) :
    (dat3 (F := Ideal) V c).flushed 2 t = ((cfg3.win 2).blk t).view.read (Elt Ideal)
      (Host.dotGeneral (F := Ideal) (φ₁ := .f32) (φ₂ := .f32) Cert.ReferenceIdeal.dot_S50000x256_S256x128_S50000x128_1_0_0_1_n_n none
          (V c main_v57 : S50000x256.Idx → EReal) (V c main_arg6 : S256x128.Idx → EReal)) := by
  show (cfg3.win 2).cut (grid3.coords t) ((dat3 V c).after 2 t) = _
  rw [after3_2]
  unfold out3_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  have ht : t.val < 10 := by have h := t.isLt; have hN : cfg3.N = 10 := N_3; omega
  rw [View.read_apply, out_blk3 t p q ⟨5000 * t.val + p.val, by omega⟩ rfl, arr3_apply]
  refine (blk3_apply (iblk3 V c 0 t) (iblk3 V c 1 t) p q).trans ?_
  refine Finset.sum_congr rfl fun k _ => ?_
  rw [lhs_blk3 V c t p k ⟨5000 * t.val + p.val, by omega⟩ rfl, rhs_blk3 V c t k q]

/-- An index of the result array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- The ten row blocks fill the result array: row r lies in the block of point r / 5000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, e4, e5⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

end Matmul

variable (V : (c : Dev nD) → (b : Ref sig .tc) → Buf (Elt Ideal) ((c : Thread nD τ).loc b))

/-- After the first matrix-product region the result array holds the whole product of the two argument arrays as the
    region finds them: entry (i, j) is the sum over k of x[i, k] · w[k, j], which is the host's dot_general. -/
theorem arr0 (c : Dev nD) :
    ((dat0 (F := Ideal) V c).arrAt 2 cfg0.N : S50000x256.Idx → EReal)
      = Host.dotGeneral (F := Ideal) (φ₁ := .f32) (φ₂ := .f32) Cert.ReferenceIdeal.dot_S50000x128_S128x256_S50000x256_1_0_0_1_n_n none
          (V c main_arg0 : S50000x128.Idx → EReal) (V c main_arg2 : S128x256.Idx → EReal) :=
  (dat0 (F := Ideal) V c).arrAt_eq_of_cover 2 _ (fun t _ => Matmul.flushed0 V c t) Matmul.cover0

/-- The same for the second matrix-product region, of the normalized activations and the second weight matrix. -/
theorem arr3 (c : Dev nD) :
    ((dat3 (F := Ideal) V c).arrAt 2 cfg3.N : S50000x128.Idx → EReal)
      = Host.dotGeneral (F := Ideal) (φ₁ := .f32) (φ₂ := .f32) Cert.ReferenceIdeal.dot_S50000x256_S256x128_S50000x128_1_0_0_1_n_n none
          (V c main_v57 : S50000x256.Idx → EReal) (V c main_arg6 : S256x128.Idx → EReal) :=
  (dat3 (F := Ideal) V c).arrAt_eq_of_cover 2 _ (fun t _ => Matmul.flushed3 V c t) Matmul.cover3

end Cert.KernelIdeal.Bridge

end
-- ==== Proof.KWalk.lean ====
import proofs.«116100_j7851200217412_2_alg».proof.Proof.KHost
import proofs.«116100_j7851200217412_2_alg».proof.Proof.MatmulBlocks

set_option maxRecDepth 16384

/-!
  The buffer contents at each boundary between the host stretches and the regions of the kernel program, read back
  to the launch memory: the index vectors and the edge normalization computed by the first stretch, and the argument
  arrays, are written by nothing after that, so every later boundary still holds them.
-/

noncomputable section

namespace Cert.KernelIdeal.Gen

open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Argument 0 as launched. -/
abbrev X0 (c : Dev nD) := m ((c : Thread nD τ).loc main_arg0)
/-- Argument 1 as launched. -/
abbrev X1 (c : Dev nD) := m ((c : Thread nD τ).loc main_arg1)
/-- Argument 2 as launched. -/
abbrev X2 (c : Dev nD) := m ((c : Thread nD τ).loc main_arg2)
/-- Argument 3 as launched. -/
abbrev X3 (c : Dev nD) := m ((c : Thread nD τ).loc main_arg3)
/-- Argument 4 as launched. -/
abbrev X4 (c : Dev nD) := m ((c : Thread nD τ).loc main_arg4)
/-- Argument 5 as launched. -/
abbrev X5 (c : Dev nD) := m ((c : Thread nD τ).loc main_arg5)
/-- Argument 6 as launched. -/
abbrev X6 (c : Dev nD) := m ((c : Thread nD τ).loc main_arg6)
/-- Argument 7 as launched. -/
abbrev X7 (c : Dev nD) := m ((c : Thread nD τ).loc main_arg7)

/-- A buffer that no operation of a host stretch writes holds after the stretch what it held before. -/
macro "keep_after" : tactic => `(tactic| (
  refine StableHlo.after_of_forall_not_mem _ _ (List.forall_iff_forall_mem.mp ?_)
  simp only [hostOps0, hostOps1, hostOps2, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Before the first region -/

theorem W1_v5 (c : Dev nD) : W1 m ρ c (Proc.devRef .tc main_v5) = Cert.ReferenceIdeal.Read.val_main_v6 (F := Ideal) (X1 m c) := host0_v5 (W0 m ρ c)
theorem W1_v6 (c : Dev nD) : W1 m ρ c (Proc.devRef .tc main_v6) = Cert.ReferenceIdeal.Read.val_main_v7 (F := Ideal) (X1 m c) := host0_v6 (W0 m ρ c)
theorem W1_v28 (c : Dev nD) : W1 m ρ c (Proc.devRef .tc main_v28) = Cert.ReferenceIdeal.Read.val_main_v29 (F := Ideal) (X1 m c) := host0_v28 (W0 m ρ c)
theorem W1_arg0 (c : Dev nD) : W1 m ρ c (Proc.devRef .tc main_arg0) = X0 m c :=
  (show W1 m ρ c (Proc.devRef .tc main_arg0) = W0 m ρ c (Proc.devRef .tc main_arg0) by keep_after).trans rfl
theorem W1_arg2 (c : Dev nD) : W1 m ρ c (Proc.devRef .tc main_arg2) = X2 m c :=
  (show W1 m ρ c (Proc.devRef .tc main_arg2) = W0 m ρ c (Proc.devRef .tc main_arg2) by keep_after).trans rfl
theorem W1_arg3 (c : Dev nD) : W1 m ρ c (Proc.devRef .tc main_arg3) = X3 m c :=
  (show W1 m ρ c (Proc.devRef .tc main_arg3) = W0 m ρ c (Proc.devRef .tc main_arg3) by keep_after).trans rfl
theorem W1_arg4 (c : Dev nD) : W1 m ρ c (Proc.devRef .tc main_arg4) = X4 m c :=
  (show W1 m ρ c (Proc.devRef .tc main_arg4) = W0 m ρ c (Proc.devRef .tc main_arg4) by keep_after).trans rfl
theorem W1_arg5 (c : Dev nD) : W1 m ρ c (Proc.devRef .tc main_arg5) = X5 m c :=
  (show W1 m ρ c (Proc.devRef .tc main_arg5) = W0 m ρ c (Proc.devRef .tc main_arg5) by keep_after).trans rfl
theorem W1_arg6 (c : Dev nD) : W1 m ρ c (Proc.devRef .tc main_arg6) = X6 m c :=
  (show W1 m ρ c (Proc.devRef .tc main_arg6) = W0 m ρ c (Proc.devRef .tc main_arg6) by keep_after).trans rfl
theorem W1_arg7 (c : Dev nD) : W1 m ρ c (Proc.devRef .tc main_arg7) = X7 m c :=
  (show W1 m ρ c (Proc.devRef .tc main_arg7) = W0 m ρ c (Proc.devRef .tc main_arg7) by keep_after).trans rfl

/-! ## After the first region: the product -/

/-- The first region leaves the product of the features and the first weights. -/
theorem W2_v29 (c : Dev nD) : W2 m ρ c (Proc.devRef .tc main_v29) = Cert.ReferenceIdeal.Read.val_main_v4 (F := Ideal) (X0 m c) (X2 m c) := by
  refine (W2_arr m ρ c 2).trans ((Cert.KernelIdeal.Bridge.arr0 (V1 m ρ) c).trans ?_)
  rw [show V1 m ρ c main_arg0 = X0 m c from W1_arg0 m ρ c, show V1 m ρ c main_arg2 = X2 m c from W1_arg2 m ρ c]
  rfl
theorem W2_v5 (c : Dev nD) : W2 m ρ c (Proc.devRef .tc main_v5) = Cert.ReferenceIdeal.Read.val_main_v6 (F := Ideal) (X1 m c) :=
  (W2_of_ne m ρ c main_v5 (by decide)).trans (W1_v5 m ρ c)
theorem W2_v6 (c : Dev nD) : W2 m ρ c (Proc.devRef .tc main_v6) = Cert.ReferenceIdeal.Read.val_main_v7 (F := Ideal) (X1 m c) :=
  (W2_of_ne m ρ c main_v6 (by decide)).trans (W1_v6 m ρ c)
theorem W2_v28 (c : Dev nD) : W2 m ρ c (Proc.devRef .tc main_v28) = Cert.ReferenceIdeal.Read.val_main_v29 (F := Ideal) (X1 m c) :=
  (W2_of_ne m ρ c main_v28 (by decide)).trans (W1_v28 m ρ c)
theorem W2_arg3 (c : Dev nD) : W2 m ρ c (Proc.devRef .tc main_arg3) = X3 m c :=
  (W2_of_ne m ρ c main_arg3 (by decide)).trans (W1_arg3 m ρ c)
theorem W2_arg4 (c : Dev nD) : W2 m ρ c (Proc.devRef .tc main_arg4) = X4 m c :=
  (W2_of_ne m ρ c main_arg4 (by decide)).trans (W1_arg4 m ρ c)
theorem W2_arg5 (c : Dev nD) : W2 m ρ c (Proc.devRef .tc main_arg5) = X5 m c :=
  (W2_of_ne m ρ c main_arg5 (by decide)).trans (W1_arg5 m ρ c)
theorem W2_arg6 (c : Dev nD) : W2 m ρ c (Proc.devRef .tc main_arg6) = X6 m c :=
  (W2_of_ne m ρ c main_arg6 (by decide)).trans (W1_arg6 m ρ c)
theorem W2_arg7 (c : Dev nD) : W2 m ρ c (Proc.devRef .tc main_arg7) = X7 m c :=
  (W2_of_ne m ρ c main_arg7 (by decide)).trans (W1_arg7 m ρ c)

/-! ## Before the statistics region: the first aggregated layer -/

theorem W3_v45 (c : Dev nD) : W3 m ρ c (Proc.devRef .tc main_v45) = Cert.ReferenceIdeal.Read.val_main_v45 (F := Ideal) (X0 m c) (X1 m c) (X2 m c) (X3 m c) :=
  host1_v45 (W2 m ρ c) _ _ _ _ (W2_v29 m ρ c) (W2_v5 m ρ c) (W2_v6 m ρ c) (W2_v28 m ρ c) (W2_arg3 m ρ c)
theorem W3_v5 (c : Dev nD) : W3 m ρ c (Proc.devRef .tc main_v5) = Cert.ReferenceIdeal.Read.val_main_v6 (F := Ideal) (X1 m c) :=
  (show W3 m ρ c (Proc.devRef .tc main_v5) = W2 m ρ c (Proc.devRef .tc main_v5) by keep_after).trans (W2_v5 m ρ c)
theorem W3_v6 (c : Dev nD) : W3 m ρ c (Proc.devRef .tc main_v6) = Cert.ReferenceIdeal.Read.val_main_v7 (F := Ideal) (X1 m c) :=
  (show W3 m ρ c (Proc.devRef .tc main_v6) = W2 m ρ c (Proc.devRef .tc main_v6) by keep_after).trans (W2_v6 m ρ c)
theorem W3_v28 (c : Dev nD) : W3 m ρ c (Proc.devRef .tc main_v28) = Cert.ReferenceIdeal.Read.val_main_v29 (F := Ideal) (X1 m c) :=
  (show W3 m ρ c (Proc.devRef .tc main_v28) = W2 m ρ c (Proc.devRef .tc main_v28) by keep_after).trans (W2_v28 m ρ c)
theorem W3_arg4 (c : Dev nD) : W3 m ρ c (Proc.devRef .tc main_arg4) = X4 m c :=
  (show W3 m ρ c (Proc.devRef .tc main_arg4) = W2 m ρ c (Proc.devRef .tc main_arg4) by keep_after).trans (W2_arg4 m ρ c)
theorem W3_arg5 (c : Dev nD) : W3 m ρ c (Proc.devRef .tc main_arg5) = X5 m c :=
  (show W3 m ρ c (Proc.devRef .tc main_arg5) = W2 m ρ c (Proc.devRef .tc main_arg5) by keep_after).trans (W2_arg5 m ρ c)
theorem W3_arg6 (c : Dev nD) : W3 m ρ c (Proc.devRef .tc main_arg6) = X6 m c :=
  (show W3 m ρ c (Proc.devRef .tc main_arg6) = W2 m ρ c (Proc.devRef .tc main_arg6) by keep_after).trans (W2_arg6 m ρ c)
theorem W3_arg7 (c : Dev nD) : W3 m ρ c (Proc.devRef .tc main_arg7) = X7 m c :=
  (show W3 m ρ c (Proc.devRef .tc main_arg7) = W2 m ρ c (Proc.devRef .tc main_arg7) by keep_after).trans (W2_arg7 m ρ c)

/-! ## After the statistics region -/

theorem W4_v46_0 (c : Dev nD) : W4 m ρ c (Proc.devRef .tc main_v46_0) = (dat1 (V3 m ρ) c).arrAt 1 cfg1.N := W4_arr m ρ c 1
theorem W4_v46_1 (c : Dev nD) : W4 m ρ c (Proc.devRef .tc main_v46_1) = (dat1 (V3 m ρ) c).arrAt 2 cfg1.N := W4_arr m ρ c 2
/-- The region only reads the aggregated layer. -/
theorem W4_v45 (c : Dev nD) : W4 m ρ c (Proc.devRef .tc main_v45) = Cert.ReferenceIdeal.Read.val_main_v45 (F := Ideal) (X0 m c) (X1 m c) (X2 m c) (X3 m c) :=
  ((W4_arr m ρ c 0).trans (((dat1 (V3 m ρ) c).arrAt_in 0 rfl _).trans (A_eq1 (V3 m ρ) c 0))).trans (W3_v45 m ρ c)
theorem W4_v5 (c : Dev nD) : W4 m ρ c (Proc.devRef .tc main_v5) = Cert.ReferenceIdeal.Read.val_main_v6 (F := Ideal) (X1 m c) :=
  (W4_of_ne m ρ c main_v5 (by decide)).trans (W3_v5 m ρ c)
theorem W4_v6 (c : Dev nD) : W4 m ρ c (Proc.devRef .tc main_v6) = Cert.ReferenceIdeal.Read.val_main_v7 (F := Ideal) (X1 m c) :=
  (W4_of_ne m ρ c main_v6 (by decide)).trans (W3_v6 m ρ c)
theorem W4_v28 (c : Dev nD) : W4 m ρ c (Proc.devRef .tc main_v28) = Cert.ReferenceIdeal.Read.val_main_v29 (F := Ideal) (X1 m c) :=
  (W4_of_ne m ρ c main_v28 (by decide)).trans (W3_v28 m ρ c)
theorem W4_arg4 (c : Dev nD) : W4 m ρ c (Proc.devRef .tc main_arg4) = X4 m c :=
  (W4_of_ne m ρ c main_arg4 (by decide)).trans (W3_arg4 m ρ c)
theorem W4_arg5 (c : Dev nD) : W4 m ρ c (Proc.devRef .tc main_arg5) = X5 m c :=
  (W4_of_ne m ρ c main_arg5 (by decide)).trans (W3_arg5 m ρ c)
theorem W4_arg6 (c : Dev nD) : W4 m ρ c (Proc.devRef .tc main_arg6) = X6 m c :=
  (W4_of_ne m ρ c main_arg6 (by decide)).trans (W3_arg6 m ρ c)
theorem W4_arg7 (c : Dev nD) : W4 m ρ c (Proc.devRef .tc main_arg7) = X7 m c :=
  (W4_of_ne m ρ c main_arg7 (by decide)).trans (W3_arg7 m ρ c)

/-! ## Before the normalizing region -/

theorem W5_v45 (c : Dev nD) : W5 m ρ c (Proc.devRef .tc main_v45) = Cert.ReferenceIdeal.Read.val_main_v45 (F := Ideal) (X0 m c) (X1 m c) (X2 m c) (X3 m c) :=
  (show W5 m ρ c (Proc.devRef .tc main_v45) = W4 m ρ c (Proc.devRef .tc main_v45) by keep_after).trans (W4_v45 m ρ c)
theorem W5_v5 (c : Dev nD) : W5 m ρ c (Proc.devRef .tc main_v5) = Cert.ReferenceIdeal.Read.val_main_v6 (F := Ideal) (X1 m c) :=
  (show W5 m ρ c (Proc.devRef .tc main_v5) = W4 m ρ c (Proc.devRef .tc main_v5) by keep_after).trans (W4_v5 m ρ c)
theorem W5_v6 (c : Dev nD) : W5 m ρ c (Proc.devRef .tc main_v6) = Cert.ReferenceIdeal.Read.val_main_v7 (F := Ideal) (X1 m c) :=
  (show W5 m ρ c (Proc.devRef .tc main_v6) = W4 m ρ c (Proc.devRef .tc main_v6) by keep_after).trans (W4_v6 m ρ c)
theorem W5_v28 (c : Dev nD) : W5 m ρ c (Proc.devRef .tc main_v28) = Cert.ReferenceIdeal.Read.val_main_v29 (F := Ideal) (X1 m c) :=
  (show W5 m ρ c (Proc.devRef .tc main_v28) = W4 m ρ c (Proc.devRef .tc main_v28) by keep_after).trans (W4_v28 m ρ c)
theorem W5_arg6 (c : Dev nD) : W5 m ρ c (Proc.devRef .tc main_arg6) = X6 m c :=
  (show W5 m ρ c (Proc.devRef .tc main_arg6) = W4 m ρ c (Proc.devRef .tc main_arg6) by keep_after).trans (W4_arg6 m ρ c)
theorem W5_arg7 (c : Dev nD) : W5 m ρ c (Proc.devRef .tc main_arg7) = X7 m c :=
  (show W5 m ρ c (Proc.devRef .tc main_arg7) = W4 m ρ c (Proc.devRef .tc main_arg7) by keep_after).trans (W4_arg7 m ρ c)

/-! ## After the normalizing region, and after the second product -/

theorem W6_v57 (c : Dev nD) : W6 m ρ c (Proc.devRef .tc main_v57) = (dat2 (V5 m ρ) c).arrAt 5 cfg2.N := W6_arr m ρ c 5
theorem W6_v5 (c : Dev nD) : W6 m ρ c (Proc.devRef .tc main_v5) = Cert.ReferenceIdeal.Read.val_main_v6 (F := Ideal) (X1 m c) :=
  (W6_of_ne m ρ c main_v5 (by decide)).trans (W5_v5 m ρ c)
theorem W6_v6 (c : Dev nD) : W6 m ρ c (Proc.devRef .tc main_v6) = Cert.ReferenceIdeal.Read.val_main_v7 (F := Ideal) (X1 m c) :=
  (W6_of_ne m ρ c main_v6 (by decide)).trans (W5_v6 m ρ c)
theorem W6_v28 (c : Dev nD) : W6 m ρ c (Proc.devRef .tc main_v28) = Cert.ReferenceIdeal.Read.val_main_v29 (F := Ideal) (X1 m c) :=
  (W6_of_ne m ρ c main_v28 (by decide)).trans (W5_v28 m ρ c)
theorem W6_arg6 (c : Dev nD) : W6 m ρ c (Proc.devRef .tc main_arg6) = X6 m c :=
  (W6_of_ne m ρ c main_arg6 (by decide)).trans (W5_arg6 m ρ c)
theorem W6_arg7 (c : Dev nD) : W6 m ρ c (Proc.devRef .tc main_arg7) = X7 m c :=
  (W6_of_ne m ρ c main_arg7 (by decide)).trans (W5_arg7 m ρ c)
theorem W7_v5 (c : Dev nD) : W7 m ρ c (Proc.devRef .tc main_v5) = Cert.ReferenceIdeal.Read.val_main_v6 (F := Ideal) (X1 m c) :=
  (W7_of_ne m ρ c main_v5 (by decide)).trans (W6_v5 m ρ c)
theorem W7_v6 (c : Dev nD) : W7 m ρ c (Proc.devRef .tc main_v6) = Cert.ReferenceIdeal.Read.val_main_v7 (F := Ideal) (X1 m c) :=
  (W7_of_ne m ρ c main_v6 (by decide)).trans (W6_v6 m ρ c)
theorem W7_v28 (c : Dev nD) : W7 m ρ c (Proc.devRef .tc main_v28) = Cert.ReferenceIdeal.Read.val_main_v29 (F := Ideal) (X1 m c) :=
  (W7_of_ne m ρ c main_v28 (by decide)).trans (W6_v28 m ρ c)
theorem W7_arg7 (c : Dev nD) : W7 m ρ c (Proc.devRef .tc main_arg7) = X7 m c :=
  (W7_of_ne m ρ c main_arg7 (by decide)).trans (W6_arg7 m ρ c)

end Cert.KernelIdeal.Gen

end
-- ==== Proof.ColumnSums.lean ====
import proofs.«116100_j7851200217412_2_alg».proof.Proof.Gen.KernelIdeal.Frame
import proofs.«116100_j7851200217412_2_alg».proof.Proof.Gen.ReferenceIdeal
import proofs.«116100_j7851200217412_2_alg».proof.Proof.Basics
import Idealize.ShloMosaic.Lib.ValueIdx
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.Bridge

open Cert.KernelIdeal Cert.KernelIdeal.Gen

namespace ColumnSums

/-! ## What each control case leaves in the two accumulators

At the first grid point the body stores the zero row and then adds the block's statistics to it; at every later
point it adds them to what the point before left. Each accumulator is written by covering stores through the whole
one-row buffer, so what it holds afterwards is the last store's value. -/

section Pieces
variable {F : FTy → Type} [FloatOps F]

/-- The two zero offsets of a whole-buffer access. -/
theorem zero_offsets : (![0, 0] : Fin 2 → Nat) = fun _ => 0 := funext fun a => by fin_cases a <;> rfl

/-- A later point leaves in the first accumulator the running row plus the block's column sums. -/
theorem later_sum (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero (S := S1x256) zero_offsets]
  simp only [View.readAt_eq_ld, h1.read_unread, h2.read_unread, View.ld_unit_zero (S := S2000x256) zero_offsets,
    View.ld_unit_zero (S := S1x256) zero_offsets]

/-- A later point leaves in the second accumulator the running row plus the block's column sums of squares. -/
theorem later_sumsq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero (S := S1x256) zero_offsets]
  simp only [View.readAt_eq_ld, h1.read_unread, h3.read_unread, View.ld_unit_zero (S := S2000x256) zero_offsets,
    View.ld_unit_zero (S := S1x256) zero_offsets]

/-- The first point leaves in the first accumulator the zero row plus the block's column sums. -/
theorem first_sum (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

/-- The first point leaves in the second accumulator the zero row plus the block's column sums of squares. -/
theorem first_sumsq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

end Pieces

/-! ## The block statistics at a column

Over the extended reals the lane reduction of a 2000-row block is, at column `j`, the sum down that column; the
one-row result is stored with a leading unit axis. -/

section Payloads

/-- The reduction over the rows, read at column `j`. -/
theorem rows_reduced (src : FVec Ideal S2000x256 .f32) (h : S2000x256.Reduces [0] S256) (hφ : FKind.Formats .f32)
    (hacc : (0x00000000#32 : BitVec 32) = 0x00000000#32) (j : Fin 256) :
    multiReduction .add [0] S256 src 0x00000000#32 h hφ hacc (ix1 j) = ∑ k : Fin 2000, src (ix2 k j) :=
  (Ideal.multiReduction_add_single src 0x00000000#32 h hφ hacc (ix1 j)).trans
    (Finset.sum_congr rfl fun k _ => congrArg src (funext fun a => by
      match a with
      | ⟨0, _⟩ => exact Fin.ext rfl
      | ⟨1, _⟩ => exact Fin.ext rfl))

/-- A 256-vector stored as a one-row block reads, at (0, j), its entry j. -/
theorem as_row (v : S256.Idx → EReal) (h : S256.ShapeCasts S1x256) (j : Fin 256) :
    shapeCast S1x256 v h (ix2 (0 : Fin 1) j) = v (ix1 j) :=
  (shapeCast_addUnit_apply ![256] v h (ix2 (0 : Fin 1) j)).trans
    (congrArg v (funext fun a => by match a with | ⟨0, _⟩ => rfl))

/-- The first accumulator's update at column `j`: what it held plus the block's column sum. -/
theorem sum_update (x : Vec Ideal S2000x256 .f32) (xo : Vec Ideal S1x256 .f32) (j : Fin 256) :
    k1_pay4 (F := Ideal) x xo (ix2 (0 : Fin 1) j) = xo (ix2 (0 : Fin 1) j) + ∑ k : Fin 2000, x (ix2 k j) := by
  unfold k1_pay4 k1_pay3
  dsimp only
  rw [shapeCast_self, shapeCast_self, addf_apply]
  exact congrArg (xo (ix2 (0 : Fin 1) j) + ·) ((as_row _ _ j).trans (rows_reduced x _ _ _ j))

/-- The second accumulator's update at column `j`: what it held plus the block's column sum of squares. -/
theorem sumsq_update (x : Vec Ideal S2000x256 .f32) (xo : Vec Ideal S1x256 .f32) (j : Fin 256) :
    k1_pay5 (F := Ideal) x xo (ix2 (0 : Fin 1) j)
      = xo (ix2 (0 : Fin 1) j) + ∑ k : Fin 2000, x (ix2 k j) * x (ix2 k j) := by
  unfold k1_pay5 k1_pay3
  dsimp only
  rw [shapeCast_self, shapeCast_self, addf_apply]
  exact congrArg (xo (ix2 (0 : Fin 1) j) + ·) ((as_row _ _ j).trans (rows_reduced (mulf x x) _ _ _ j))

/-- The row the first accumulator is reset to is zero. -/
theorem reset_sum (j : Fin 256) : k1_pay1 (F := Ideal) (ix2 (0 : Fin 1) j) = 0 := Ideal.ofBits_zero_f32

/-- The row the second accumulator is reset to is zero. -/
theorem reset_sumsq (j : Fin 256) : k1_pay2 (F := Ideal) (ix2 (0 : Fin 1) j) = 0 := Ideal.ofBits_zero_f32

end Payloads

/-! ## The rows of the array, block by block

Grid point `t` reads rows 2000·t … 2000·t + 1999 of the array, every column; the 50000 rows are the 25 blocks of
2000 rows one after the other, so a sum over all rows is the sum over the blocks of the sums within each. -/

section Blocks

/-- Row `y` of block `t`, as a row of the array. -/
def blockRow (t : ℕ) (ht : t < 25) (y : Fin 2000) : Fin 50000 := ⟨2000 * t + y.val, by omega⟩

/-- A sum over the 50000 rows, taken block by block. -/
theorem sum_by_blocks (f : Fin 50000 → EReal) :
    ∑ r : Fin 50000, f r = ∑ t : Fin 25, ∑ y : Fin 2000, f (blockRow t.val t.isLt y) := by
  have e : 25 * 2000 = 50000 := by norm_num
  rw [← Equiv.sum_comp ((finProdFinEquiv (m := 25) (n := 2000)).trans (finCongr e)) f, Fintype.sum_prod_type]
  refine Finset.sum_congr rfl fun t _ => Finset.sum_congr rfl fun y _ => congrArg f (Fin.ext ?_)
  simp only [Equiv.trans_apply, finCongr_apply, Fin.val_cast, finProdFinEquiv_apply_val, blockRow]
  omega

variable (V : (c : Dev nD) → (b : Ref sig .tc) → Buf (Elt Ideal) ((c : Thread nD τ).loc b))

/-- Point `t`'s block of the input starts at row 2000·t, column 0. -/
theorem block_origin : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- So entry (y, j) of the block point `t` reads is entry (2000·t + y, j) of the array. -/
theorem block_apply (c : Dev nD) (X : S50000x256.Idx → EReal) (hX : X = V c main_v45) (t : Fin cfg1.N)
    (y : Fin 2000) (j : Fin 256) (r : Fin 50000) (hr : r.val = 2000 * t.val + y.val) :
    (iblk1 V c 0 t : Vec Ideal S2000x256 .f32) (ix2 y j) = X (ix2 r j) := by
  subst hX
  unfold iblk1
  rw [View.read_apply]
  show V c main_v45 (((cfg1.win 0).blk t).view.emb (ix2 y j)) = V c main_v45 (ix2 r j)
  refine congrArg (V c main_v45) (funext fun a => Fin.ext ?_)
  match a with
  | ⟨0, _⟩ =>
    show win1_0.index t 0 * 2000 + 1 * y.val = r.val
    rw [(block_origin t).1]; omega
  | ⟨1, _⟩ =>
    show win1_0.index t 1 * 256 + 1 * j.val = j.val
    rw [(block_origin t).2]; omega

end Blocks

/-! ## The accumulators after each point

After point `n` the first accumulator holds, at column `j`, the sum of that column over the rows of blocks
0, …, n, and the second the sum of the squares — by induction on the point: the first point starts from the zero
row, every later one adds its block to what the point before left. -/

section Invariant

variable (V : (c : Dev nD) → (b : Ref sig .tc) → Buf (Elt Ideal) ((c : Thread nD τ).loc b))

theorem sum_after (c : Dev nD) (X : S50000x256.Idx → EReal) (hX : X = V c main_v45) (j : Fin 256) :
    ∀ (n : ℕ) (h25 : n + 1 ≤ 25) (hn : n < cfg1.N),
    (outsAt1 V c n hn).1 (ix2 (0 : Fin 1) j)
      = ∑ t : Fin (n + 1), ∑ y : Fin 2000, X (ix2 (blockRow t.val (Nat.lt_of_lt_of_le t.isLt h25) y) j)
  | 0, h25, hn => by
    rw [outsAt1_A V c ⟨0, hn⟩ rfl]
    dsimp only
    rw [first_sum]
    refine (sum_update _ _ j).trans ?_
    rw [reset_sum, zero_add]
    refine Eq.trans ?_ (Fin.sum_univ_castSucc (n := 0) _).symm
    rw [Fin.sum_univ_zero, zero_add]
    exact Finset.sum_congr rfl fun y _ => block_apply V c X hX ⟨0, hn⟩ y j _ rfl
  | n + 1, h25, hn => by
    have hB : ¬(⟨n + 1, hn⟩ : Fin cfg1.N).val % 25 = 0 := by dsimp only; omega
    rw [outsAt1_B V c ⟨n + 1, hn⟩ hB]
    dsimp only
    rw [later_sum]
    refine (sum_update _ _ j).trans ?_
    refine Eq.trans ?_ (Fin.sum_univ_castSucc (n := n + 1) _).symm
    exact congrArg₂ (· + ·) (sum_after c X hX j n (by omega) _)
      (Finset.sum_congr rfl fun y _ => block_apply V c X hX ⟨n + 1, hn⟩ y j _ rfl)

theorem sumsq_after (c : Dev nD) (X : S50000x256.Idx → EReal) (hX : X = V c main_v45) (j : Fin 256) :
    ∀ (n : ℕ) (h25 : n + 1 ≤ 25) (hn : n < cfg1.N),
    (outsAt1 V c n hn).2 (ix2 (0 : Fin 1) j)
      = ∑ t : Fin (n + 1), ∑ y : Fin 2000,
          X (ix2 (blockRow t.val (Nat.lt_of_lt_of_le t.isLt h25) y) j)
            * X (ix2 (blockRow t.val (Nat.lt_of_lt_of_le t.isLt h25) y) j)
  | 0, h25, hn => by
    rw [outsAt1_A V c ⟨0, hn⟩ rfl]
    dsimp only
    rw [first_sumsq]
    refine (sumsq_update _ _ j).trans ?_
    rw [reset_sumsq, zero_add]
    refine Eq.trans ?_ (Fin.sum_univ_castSucc (n := 0) _).symm
    rw [Fin.sum_univ_zero, zero_add]
    exact Finset.sum_congr rfl fun y _ =>
      congrArg₂ (· * ·) (block_apply V c X hX ⟨0, hn⟩ y j _ rfl) (block_apply V c X hX ⟨0, hn⟩ y j _ rfl)
  | n + 1, h25, hn => by
    have hB : ¬(⟨n + 1, hn⟩ : Fin cfg1.N).val % 25 = 0 := by dsimp only; omega
    rw [outsAt1_B V c ⟨n + 1, hn⟩ hB]
    dsimp only
    rw [later_sumsq]
    refine (sumsq_update _ _ j).trans ?_
    refine Eq.trans ?_ (Fin.sum_univ_castSucc (n := n + 1) _).symm
    exact congrArg₂ (· + ·) (sumsq_after c X hX j n (by omega) _)
      (Finset.sum_congr rfl fun y _ => congrArg₂ (· * ·)
        (block_apply V c X hX ⟨n + 1, hn⟩ y j _ rfl) (block_apply V c X hX ⟨n + 1, hn⟩ y j _ rfl))

end Invariant

/-! ## The output arrays after the region

Each accumulator's window keeps one block index over the whole grid, and that block is the whole one-row array; it is
written back once, after the last point (point 24). So each output array ends holding what its accumulator held then. -/

section Arrays

variable (V : (c : Dev nD) → (b : Ref sig .tc) → Buf (Elt Ideal) ((c : Thread nD τ).loc b))

theorem last_point_lt : 24 < cfg1.N := by rw [show cfg1.N = 25 from N_1]; decide

/-- The last grid point. -/
abbrev lastPoint : Fin cfg1.N := ⟨24, last_point_lt⟩

/-- A point that writes an accumulator back is the last one. -/
theorem eq_last_of_flush (t : Fin cfg1.N) (h : t.val % 25 = 24) : t = lastPoint := by
  have hN : cfg1.N = 25 := N_1
  have := t.isLt
  exact Fin.ext (by show t.val = 24; omega)

/-- The first accumulator after the last point, as contents of the first output array. -/
abbrev finalSum (c : Dev nD) : Buf (Elt Ideal) ((c : Thread nD τ).loc main_v46_0) := (outsAt1 V c 24 last_point_lt).1

/-- The second accumulator after the last point, as contents of the second output array. -/
abbrev finalSumsq (c : Dev nD) : Buf (Elt Ideal) ((c : Thread nD τ).loc main_v46_1) := (outsAt1 V c 24 last_point_lt).2

/-- The one write-back of the first accumulator writes the whole of it: the block at zero offsets is the array. -/
theorem written_back_sum (c : Dev nD) (t : Fin cfg1.N) (hf : (cfg1.win 1).flush t = true) :
    (dat1 V c).flushed 1 t = ((cfg1.win 1).blk t).view.read (Elt Ideal) (finalSum V c) := by
  obtain rfl := eq_last_of_flush t ((flush1_1 t).mp hf)
  show (cfg1.win 1).cut (grid1.coords lastPoint) ((dat1 V c).after 1 lastPoint) = _
  rw [after1_1]
  have origin : (fun a => win1_1.index lastPoint a * main_v46_0.ty.shape.size a) = fun _ => 0 :=
    funext fun a => by fin_cases a <;> decide
  exact (Memref.read_access_unit_zero (Elt Ideal) main_v46_0 origin
    (fun a => by rw [congrFun origin a]; simp) (finalSum V c)).symm

/-- Likewise for the second accumulator. -/
theorem written_back_sumsq (c : Dev nD) (t : Fin cfg1.N) (hf : (cfg1.win 2).flush t = true) :
    (dat1 V c).flushed 2 t = ((cfg1.win 2).blk t).view.read (Elt Ideal) (finalSumsq V c) := by
  obtain rfl := eq_last_of_flush t ((flush1_2 t).mp hf)
  show (cfg1.win 2).cut (grid1.coords lastPoint) ((dat1 V c).after 2 lastPoint) = _
  rw [after1_2]
  have origin : (fun a => win1_2.index lastPoint a * main_v46_1.ty.shape.size a) = fun _ => 0 :=
    funext fun a => by fin_cases a <;> decide
  exact (Memref.read_access_unit_zero (Elt Ideal) main_v46_1 origin
    (fun a => by rw [congrFun origin a]; simp) (finalSumsq V c)).symm

/-- The block the last point writes back covers every entry of the first output array. -/
theorem last_block_sum_covers (i : main_v46_0.ty.Idx) : i ∈ ((cfg1.win 1).blk lastPoint).view.set := by
  show i ∈ ((View.whole main_v46_0).slice (win1_1.rect lastPoint)).set
  rw [View.set_slice_whole, Rect.mem_set_unit]
  intro a
  have h0 : (i 0 : Nat) < 1 := (i 0).isLt
  have h1 : (i 1 : Nat) < 256 := (i 1).isLt
  match a with
  | ⟨0, _⟩ =>
    show win1_1.index lastPoint 0 * win1_1.size 0 ≤ (i 0 : Nat)
      ∧ (i 0 : Nat) < win1_1.index lastPoint 0 * win1_1.size 0 + win1_1.xsize (grid1.coords lastPoint) 0
    rw [show win1_1.index lastPoint 0 * win1_1.size 0 = 0 from by decide +kernel,
      show win1_1.xsize (grid1.coords lastPoint) 0 = 1 from by decide +kernel]
    omega
  | ⟨1, _⟩ =>
    show win1_1.index lastPoint 1 * win1_1.size 1 ≤ (i 1 : Nat)
      ∧ (i 1 : Nat) < win1_1.index lastPoint 1 * win1_1.size 1 + win1_1.xsize (grid1.coords lastPoint) 1
    rw [show win1_1.index lastPoint 1 * win1_1.size 1 = 0 from by decide +kernel,
      show win1_1.xsize (grid1.coords lastPoint) 1 = 256 from by decide +kernel]
    omega

/-- … and every entry of the second. -/
theorem last_block_sumsq_covers (i : main_v46_1.ty.Idx) : i ∈ ((cfg1.win 2).blk lastPoint).view.set := by
  show i ∈ ((View.whole main_v46_1).slice (win1_2.rect lastPoint)).set
  rw [View.set_slice_whole, Rect.mem_set_unit]
  intro a
  have h0 : (i 0 : Nat) < 1 := (i 0).isLt
  have h1 : (i 1 : Nat) < 256 := (i 1).isLt
  match a with
  | ⟨0, _⟩ =>
    show win1_2.index lastPoint 0 * win1_2.size 0 ≤ (i 0 : Nat)
      ∧ (i 0 : Nat) < win1_2.index lastPoint 0 * win1_2.size 0 + win1_2.xsize (grid1.coords lastPoint) 0
    rw [show win1_2.index lastPoint 0 * win1_2.size 0 = 0 from by decide +kernel,
      show win1_2.xsize (grid1.coords lastPoint) 0 = 1 from by decide +kernel]
    omega
  | ⟨1, _⟩ =>
    show win1_2.index lastPoint 1 * win1_2.size 1 ≤ (i 1 : Nat)
      ∧ (i 1 : Nat) < win1_2.index lastPoint 1 * win1_2.size 1 + win1_2.xsize (grid1.coords lastPoint) 1
    rw [show win1_2.index lastPoint 1 * win1_2.size 1 = 0 from by decide +kernel,
      show win1_2.xsize (grid1.coords lastPoint) 1 = 256 from by decide +kernel]
    omega

/-- The first output array ends holding the first accumulator's last contents. -/
theorem array_sum (c : Dev nD) : (dat1 V c).arrAt 1 cfg1.N = finalSum V c :=
  (dat1 V c).arrAt_eq_of_cover 1 (finalSum V c) (written_back_sum V c) fun i =>
    ⟨lastPoint, (flush1_1 lastPoint).mpr rfl, last_block_sum_covers i⟩

/-- The second output array ends holding the second accumulator's last contents. -/
theorem array_sumsq (c : Dev nD) : (dat1 V c).arrAt 2 cfg1.N = finalSumsq V c :=
  (dat1 V c).arrAt_eq_of_cover 2 (finalSumsq V c) (written_back_sumsq V c) fun i =>
    ⟨lastPoint, (flush1_2 lastPoint).mpr rfl, last_block_sumsq_covers i⟩

end Arrays

end ColumnSums

open ColumnSums

variable (V : (c : Dev nD) → (b : Ref sig .tc) → Buf (Elt Ideal) ((c : Thread nD τ).loc b))

/-- After the statistics region its first output holds, in column j, the sum of column j of the input array. -/
theorem arr1_sum (c : Dev nD) (A : S1x256.Idx → EReal) (X : S50000x256.Idx → EReal)
    (hA : A = (dat1 (F := Ideal) V c).arrAt 1 cfg1.N) (hX : X = V c main_v45) (j : Fin 256) :
    A (ix2 (0 : Fin 1) j) = ∑ r : Fin 50000, X (ix2 r j) := by
  subst hA
  refine (congrFun (array_sum V c) (ix2 (0 : Fin 1) j)).trans ?_
  refine (sum_after V c X hX j 24 (by decide) last_point_lt).trans ?_
  exact (sum_by_blocks fun r => X (ix2 r j)).symm

/-- … and its second output the sum of the squares of column j. -/
theorem arr1_sumsq (c : Dev nD) (A : S1x256.Idx → EReal) (X : S50000x256.Idx → EReal)
    (hA : A = (dat1 (F := Ideal) V c).arrAt 2 cfg1.N) (hX : X = V c main_v45) (j : Fin 256) :
    A (ix2 (0 : Fin 1) j) = ∑ r : Fin 50000, X (ix2 r j) * X (ix2 r j) := by
  subst hA
  refine (congrFun (array_sumsq V c) (ix2 (0 : Fin 1) j)).trans ?_
  refine (sumsq_after V c X hX j 24 (by decide) last_point_lt).trans ?_
  exact (sum_by_blocks fun r => X (ix2 r j) * X (ix2 r j)).symm

end Cert.KernelIdeal.Bridge

end
-- ==== Proof.NormalizeBlocks.lean ====
import proofs.«116100_j7851200217412_2_alg».proof.Proof.Gen.KernelIdeal.Frame
import proofs.«116100_j7851200217412_2_alg».proof.Proof.Gen.ReferenceIdeal
import proofs.«116100_j7851200217412_2_alg».proof.Proof.Basics
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Bridge

open Cert.KernelIdeal Cert.KernelIdeal.Gen

variable (V : (c : Dev nD) → (b : Ref sig .tc) → Buf (Elt Ideal) ((c : Thread nD τ).loc b))

namespace Normalize

/-- The normalised, scaled, shifted and clamped value at row `r`, column `j`: the two statistics and the two affine
    parameters are single rows, read at the column. -/
def normClampAt (X : S50000x256.Idx → EReal) (mean var g b : S1x256.Idx → EReal) (r : Fin 50000) (j : Fin 256) : EReal :=
  max ((X (ix2 r j) - mean (ix2 (0 : Fin 1) j)) * Ideal.rsqrt (var (ix2 (0 : Fin 1) j) + Ideal.ofBits .f32 0x3727C5AC#32)
        * g (ix2 (0 : Fin 1) j) + b (ix2 (0 : Fin 1) j)) 0

/-- The whole output array as one function of the five input arrays, index by index. -/
def normClamp (X : S50000x256.Idx → EReal) (mean var g b : S1x256.Idx → EReal) : S50000x256.Idx → EReal :=
  fun i => normClampAt X mean var g b (i 0) (i 1)

/-- The offsets (0, 0) of a whole-block load or store. -/
theorem zero_offsets : (![0, 0] : Fin 2 → Nat) = fun _ => 0 := funext fun a => by fin_cases a <;> rfl

/-- The value the body stores at (p, q) of a block: the block's entry minus the mean's, times the reciprocal square
    root of the variance's plus ε, times the scale's, plus the shift's, clamped below at 0 — each row vector is
    repeated down the 2000 rows, so it is read at column q. -/
theorem stored_apply (x0 : Vec Ideal S2000x256 .f32) (xv xm xg xb : Vec Ideal S1x256 .f32) (p : Fin 2000) (q : Fin 256) :
    k2_pay1 x0 xv xm xg xb (ix2 p q)
      = max ((x0 (ix2 p q) - xm (ix2 (0 : Fin 1) q)) * Ideal.rsqrt (xv (ix2 (0 : Fin 1) q) + Ideal.ofBits .f32 0x3727C5AC#32)
              * xg (ix2 (0 : Fin 1) q) + xb (ix2 (0 : Fin 1) q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max ((x0 (ix2 p q) - xm (ix2 (0 : Fin 1) q)) * Ideal.rsqrt (xv (ix2 (0 : Fin 1) q) + Ideal.ofBits .f32 0x3727C5AC#32)
              * xg (ix2 (0 : Fin 1) q) + xb (ix2 (0 : Fin 1) q)) (Ideal.ofBits .f32 0x00000000#32) = _
  rw [Ideal.ofBits_zero_f32]

/-- The block indices over the 25 grid points: the data window and the output window advance one block of rows per
    point, the four row-vector windows stay at block (0, 0). -/
theorem block_indices : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The data window's block at point t is rows 2000·t … 2000·t + 1999 of the data array. -/
theorem data_block (c : Dev nD) (t : Fin cfg2.N) (p : Fin 2000) (q : Fin 256) (h : 2000 * t.val + p.val < 50000) :
    (iblk2 V c 0 t : Vec Ideal S2000x256 .f32) (ix2 p q)
      = (V c main_v45 : S50000x256.Idx → EReal) (ix2 ⟨2000 * t.val + p.val, h⟩ q) := by
  show V c main_v45 (((cfg2.win 0).blk t).view.emb (ix2 p q)) = V c main_v45 _
  refine congrArg (V c main_v45) (funext fun a => Fin.ext ?_)
  obtain ⟨e0, e1, -⟩ := block_indices t
  match a with
  | ⟨0, _⟩ => show win2_0.index t (0 : Fin 2) * 2000 + 1 * p.val = 2000 * t.val + p.val; rw [e0]; omega
  | ⟨1, _⟩ => show win2_0.index t (1 : Fin 2) * 256 + 1 * q.val = q.val; rw [e1]; omega

/-- The mean window's block at every point is the mean row itself. -/
theorem mean_block (c : Dev nD) (t : Fin cfg2.N) (q : Fin 256) :
    (iblk2 V c 1 t : Vec Ideal S1x256 .f32) (ix2 (0 : Fin 1) q) = (V c main_v48 : S1x256.Idx → EReal) (ix2 (0 : Fin 1) q) := by
  show V c main_v48 (((cfg2.win 1).blk t).view.emb (ix2 (0 : Fin 1) q)) = V c main_v48 _
  refine congrArg (V c main_v48) (funext fun a => Fin.ext ?_)
  obtain ⟨-, -, -, -, e0, e1, -⟩ := block_indices t
  match a with
  | ⟨0, _⟩ => show win2_1.index t (0 : Fin 2) * 1 + 1 * (0 : Fin 1).val = (0 : Fin 1).val; rw [e0]; rfl
  | ⟨1, _⟩ => show win2_1.index t (1 : Fin 2) * 256 + 1 * q.val = q.val; rw [e1]; omega

/-- The variance window's block at every point is the variance row itself. -/
theorem var_block (c : Dev nD) (t : Fin cfg2.N) (q : Fin 256) :
    (iblk2 V c 2 t : Vec Ideal S1x256 .f32) (ix2 (0 : Fin 1) q) = (V c main_v54 : S1x256.Idx → EReal) (ix2 (0 : Fin 1) q) := by
  show V c main_v54 (((cfg2.win 2).blk t).view.emb (ix2 (0 : Fin 1) q)) = V c main_v54 _
  refine congrArg (V c main_v54) (funext fun a => Fin.ext ?_)
  obtain ⟨-, -, -, -, -, -, e0, e1, -⟩ := block_indices t
  match a with
  | ⟨0, _⟩ => show win2_2.index t (0 : Fin 2) * 1 + 1 * (0 : Fin 1).val = (0 : Fin 1).val; rw [e0]; rfl
  | ⟨1, _⟩ => show win2_2.index t (1 : Fin 2) * 256 + 1 * q.val = q.val; rw [e1]; omega

/-- The scale window's block at every point is the scale row itself. -/
theorem scale_block (c : Dev nD) (t : Fin cfg2.N) (q : Fin 256) :
    (iblk2 V c 3 t : Vec Ideal S1x256 .f32) (ix2 (0 : Fin 1) q) = (V c main_v55 : S1x256.Idx → EReal) (ix2 (0 : Fin 1) q) := by
  show V c main_v55 (((cfg2.win 3).blk t).view.emb (ix2 (0 : Fin 1) q)) = V c main_v55 _
  refine congrArg (V c main_v55) (funext fun a => Fin.ext ?_)
  obtain ⟨-, -, -, -, -, -, -, -, e0, e1, -⟩ := block_indices t
  match a with
  | ⟨0, _⟩ => show win2_3.index t (0 : Fin 2) * 1 + 1 * (0 : Fin 1).val = (0 : Fin 1).val; rw [e0]; rfl
  | ⟨1, _⟩ => show win2_3.index t (1 : Fin 2) * 256 + 1 * q.val = q.val; rw [e1]; omega

/-- The shift window's block at every point is the shift row itself. -/
theorem shift_block (c : Dev nD) (t : Fin cfg2.N) (q : Fin 256) :
    (iblk2 V c 4 t : Vec Ideal S1x256 .f32) (ix2 (0 : Fin 1) q) = (V c main_v56 : S1x256.Idx → EReal) (ix2 (0 : Fin 1) q) := by
  show V c main_v56 (((cfg2.win 4).blk t).view.emb (ix2 (0 : Fin 1) q)) = V c main_v56 _
  refine congrArg (V c main_v56) (funext fun a => Fin.ext ?_)
  obtain ⟨-, -, -, -, -, -, -, -, -, -, e0, e1⟩ := block_indices t
  match a with
  | ⟨0, _⟩ => show win2_4.index t (0 : Fin 2) * 1 + 1 * (0 : Fin 1).val = (0 : Fin 1).val; rw [e0]; rfl
  | ⟨1, _⟩ => show win2_4.index t (1 : Fin 2) * 256 + 1 * q.val = q.val; rw [e1]; omega

/-- What point t writes back is block t of `normClamp` of the five input arrays as the region finds them: entry (p, q)
    of the block is entry (2000·t + p, q) of the array, on the data side and on the output side alike. -/
theorem written_block (c : Dev nD) (t : Fin cfg2.N) :
    (dat2 V c).flushed 5 t = ((cfg2.win 5).blk t).view.read (Elt Ideal)
      (normClamp (V c main_v45) (V c main_v48) (V c main_v54) (V c main_v55) (V c main_v56)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S1x256) zero_offsets]
  funext y
  obtain ⟨p, q, rfl⟩ : ∃ (p : Fin 2000) (q : Fin 256), y = ix2 p q := ⟨y 0, y 1, eq_ix2 y⟩
  have ht : t.val < 25 := lt_of_lt_of_eq t.isLt N_2
  have hrow : 2000 * t.val + p.val < 50000 := by have := p.isLt; omega
  have hemb : ((cfg2.win 5).blk t).view.emb (ix2 p q) = ix2 (⟨2000 * t.val + p.val, hrow⟩ : Fin 50000) q := by
    obtain ⟨-, -, e0, e1, -⟩ := block_indices t
    refine funext fun a => Fin.ext ?_
    match a with
    | ⟨0, _⟩ => show win2_5.index t (0 : Fin 2) * 2000 + 1 * p.val = 2000 * t.val + p.val; rw [e0]; omega
    | ⟨1, _⟩ => show win2_5.index t (1 : Fin 2) * 256 + 1 * q.val = q.val; rw [e1]; omega
  show k2_pay1 (iblk2 V c 0 t) (iblk2 V c 2 t) (iblk2 V c 1 t) (iblk2 V c 3 t) (iblk2 V c 4 t) (ix2 p q)
      = normClamp (V c main_v45) (V c main_v48) (V c main_v54) (V c main_v55) (V c main_v56)
          (((cfg2.win 5).blk t).view.emb (ix2 p q))
  rw [hemb]
  refine (stored_apply (iblk2 V c 0 t) (iblk2 V c 2 t) (iblk2 V c 1 t) (iblk2 V c 3 t) (iblk2 V c 4 t) p q).trans ?_
  rw [data_block V c t p q hrow, mean_block V c t q, var_block V c t q, scale_block V c t q, shift_block V c t q]
  rfl

/-- An index of the output array lies in point t's block iff each coordinate lies in the block's range on its axis. -/
theorem mem_block (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v57).slice (win2_5.rect t)).set ↔ _
  rw [View.set_slice_whole, Rect.mem_set_unit]
  exact Iff.rfl

/-- The 25 blocks of 2000 rows tile the 50000 rows: row r lies in the block of point r / 2000. -/
theorem rows_tiled (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, e0, e1, -⟩ := block_indices t
  refine ⟨t, flush2_5 t, ?_⟩
  rw [mem_block]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 256 ≤ (i 1).val ∧ (i 1).val < win2_5.index t (1 : Fin 2) * 256 + 256
    rw [e1]; omega

/-- The output array after the region is `normClamp` of the five input arrays as the region finds them. -/
theorem output_array (c : Dev nD) :
    (dat2 V c).arrAt 5 cfg2.N = normClamp (V c main_v45) (V c main_v48) (V c main_v54) (V c main_v55) (V c main_v56) :=
  (dat2 V c).arrAt_eq_of_cover 5 _ (fun t _ => written_block V c t) rows_tiled

end Normalize

/-- After the normalize-and-clamp region the output array holds, at (r, j),
    max (((x[r, j] − mean[j]) · rsqrt (var[j] + ε)) · γ[j] + β[j]) 0 of the five input arrays as the region finds them. -/
theorem arr2 (c : Dev nD) (A X : S50000x256.Idx → EReal) (mean var g b : S1x256.Idx → EReal)
    (hA : A = (dat2 (F := Ideal) V c).arrAt 5 cfg2.N) (hX : X = V c main_v45) (hmean : mean = V c main_v48)
    (hvar : var = V c main_v54) (hg : g = V c main_v55) (hb : b = V c main_v56) (r : Fin 50000) (j : Fin 256) :
    A (ix2 r j)
      = max ((X (ix2 r j) - mean (ix2 (0 : Fin 1) j)) * Ideal.rsqrt (var (ix2 (0 : Fin 1) j) + Ideal.ofBits .f32 0x3727C5AC#32)
              * g (ix2 (0 : Fin 1) j) + b (ix2 (0 : Fin 1) j)) 0 := by
  subst hA hX hmean hvar hg hb
  exact congrFun (Normalize.output_array V c) (ix2 r j)

end Cert.KernelIdeal.Bridge

end
-- ==== Proof.Variance.lean ====
import proofs.«116100_j7851200217412_2_alg».proof.Proof.Basics
import Idealize.ShloMosaic.PureOps.Ideal.Laws

noncomputable section

open Idealize.ShloMosaic

namespace Cert.Bridge

/-- The divisor's pattern denotes the real number 50000. -/
theorem ofBits_50000 : Ideal.ofBits .f32 0x47435000#32 = ((50000 : ℝ) : EReal) := by
  simp [Ideal.ofBits, Ideal.ieee, -EReal.coe_mul]; norm_num

/-- A finite sum of real numbers, taken in the extended reals, is the real sum. -/
theorem coe_finset_sum {ι : Type*} (s : Finset ι) (f : ι → ℝ) :
    ∑ r ∈ s, ((f r : ℝ) : EReal) = ((∑ r ∈ s, f r : ℝ) : EReal) := by
  classical
  induction s using Finset.induction_on with
  | empty => simp
  | insert a s ha ih => rw [Finset.sum_insert ha, Finset.sum_insert ha, ih, EReal.coe_add]

/-- The real identity: with n = N points and mean μ = (∑ x) / N, the mean of the squares minus μ² is the mean of
    the squared deviations. Expanding (x − μ)² = x² − 2 μ x + μ² and summing gives ∑ x² − 2 μ (∑ x) + N μ², and
    ∑ x = N μ. -/
theorem real_var {n : ℕ} (x : Fin n → ℝ) (N : ℝ) (hN : N = (n : ℝ)) (hn : N ≠ 0) :
    (∑ r, x r * x r) * (1 / N) - (∑ r, x r) * (1 / N) * ((∑ r, x r) * (1 / N))
      = (∑ r, (x r - (∑ r, x r) * (1 / N)) * (x r - (∑ r, x r) * (1 / N))) * (1 / N) := by
  generalize hS : ∑ r, x r = S
  have h1 : ∑ r, (x r - S * (1 / N)) * (x r - S * (1 / N))
      = (∑ r, x r * x r) - 2 * (S * (1 / N)) * S + N * ((S * (1 / N)) * (S * (1 / N))) := by
    have h2 : ∀ r, (x r - S * (1 / N)) * (x r - S * (1 / N))
        = x r * x r - 2 * (S * (1 / N)) * x r + (S * (1 / N)) * (S * (1 / N)) := fun r => by ring
    simp only [h2]
    rw [Finset.sum_add_distrib, Finset.sum_sub_distrib, ← Finset.mul_sum, Finset.sum_const, Finset.card_univ,
      Fintype.card_fin, nsmul_eq_mul, hS, hN]
  rw [h1]
  field_simp
  ring

/-- The one-pass variance is the two-pass variance on real data: with N = 50000 rows, mean μ = (∑ x) / N,
    (∑ x²) / N − μ² = (∑ (x − μ)²) / N, and the right side is a mean of squares, so clamping the left side at zero
    changes nothing. All quotients are the extended reals' division by the literal 50000. -/
theorem var_eq (X : Fin 50000 → EReal) (hX : ∀ r, ∃ x : ℝ, X r = (x : EReal)) :
    max (Ideal.div (∑ r, X r * X r) (Ideal.ofBits .f32 0x47435000#32)
          - Ideal.div (∑ r, X r) (Ideal.ofBits .f32 0x47435000#32) * Ideal.div (∑ r, X r) (Ideal.ofBits .f32 0x47435000#32)) 0
      = Ideal.div (∑ r, (X r - Ideal.div (∑ r, X r) (Ideal.ofBits .f32 0x47435000#32))
                        * (X r - Ideal.div (∑ r, X r) (Ideal.ofBits .f32 0x47435000#32))) (Ideal.ofBits .f32 0x47435000#32) := by
  choose x hx using hX
  obtain rfl : X = fun r => ((x r : ℝ) : EReal) := funext hx
  have h50 : (50000 : ℝ) ≠ 0 := by norm_num
  rw [ofBits_50000]
  simp only [Ideal.div_coe h50]
  -- every term is now built from real numbers: move the coercion to the outside
  simp only [← EReal.coe_mul, coe_finset_sum, ← EReal.coe_sub]
  rw [real_var x 50000 (by norm_num) h50]
  refine max_eq_left (EReal.coe_nonneg.mpr ?_)
  exact mul_nonneg (Finset.sum_nonneg fun r _ => mul_self_nonneg _) (by norm_num)

end Cert.Bridge

end
-- ==== Proof.RefNorm.lean ====
import proofs.«116100_j7851200217412_2_alg».proof.Proof.Gen.ReferenceIdeal.Read
import proofs.«116100_j7851200217412_2_alg».proof.Proof.Basics
import Idealize.ShloMosaic.Lib.ValueIdx
import Idealize.ShloMosaic.PureOps.Ideal.Laws

noncomputable section

open Idealize.ShloMosaic Idealize.ShloMosaic.ValueIdx

namespace Cert.Bridge

open Cert.ReferenceIdeal

/-! ## The stages of the normalization, read at an index

Throughout, the first aggregated layer `Read.val_main_v45 x0 x1 x2 x3` stays folded: the stages below only read its
entries. -/

/-- The column mean: the sum of the column divided by the number of rows. -/
theorem mean_at (x0 : S50000x128.Idx → EReal) (x1 : IVec S2x800000 32) (x2 : S128x256.Idx → EReal) (x3 : S256.Idx → EReal)
    (j : Fin 256) :
    Read.val_main_v48 (F := Ideal) x0 x1 x2 x3 (ix1 j)
      = Ideal.div (∑ k : Fin 50000, Read.val_main_v45 (F := Ideal) x0 x1 x2 x3 (ix2 k j)) (Ideal.ofBits .f32 0x47435000#32) := by
  have e : ∀ k : Fin 50000, Read.idx_main_v46 (ix1 j) k = ix2 k j := fun k =>
    funext fun a => Fin.ext (by match a with | ⟨0, _⟩ => rfl | ⟨1, _⟩ => rfl)
  rw [Read.val_main_v48_apply, Read.val_main_v46_apply, Read.val_main_v47_apply, Read.val_main_cst_9_apply,
    Read.val_main_cst_8_apply, Ideal.hostDivf_def, Ideal.ofBits_def, Ideal.ofBits_def, Ideal.ofBits_zero_f32, zero_add]
  generalize Read.val_main_v45 (F := Ideal) x0 x1 x2 x3 = Y
  simp only [e]

/-- A centered entry, as the variance reads it: the entry minus its column's mean. -/
theorem centered_at (x0 : S50000x128.Idx → EReal) (x1 : IVec S2x800000 32) (x2 : S128x256.Idx → EReal) (x3 : S256.Idx → EReal)
    (k : Fin 50000) (j : Fin 256) :
    Read.val_main_v51 (F := Ideal) x0 x1 x2 x3 (ix2 k j)
      = Read.val_main_v45 (F := Ideal) x0 x1 x2 x3 (ix2 k j) - Read.val_main_v48 (F := Ideal) x0 x1 x2 x3 (ix1 j) := by
  have e : Read.idx_main_v49 (Read.idx_main_v50 (ix2 k j)) = ix1 j :=
    funext fun a => Fin.ext (by match a with | ⟨0, _⟩ => rfl)
  rw [Read.val_main_v51_apply, Read.val_main_v50_apply, Read.val_main_v49_apply, Ideal.subf_def, e]

/-- The column variance: the sum of the squared centered entries of the column divided by the number of rows. -/
theorem var_at (x0 : S50000x128.Idx → EReal) (x1 : IVec S2x800000 32) (x2 : S128x256.Idx → EReal) (x3 : S256.Idx → EReal)
    (j : Fin 256) :
    Read.val_main_v55 (F := Ideal) x0 x1 x2 x3 (ix1 j)
      = Ideal.div (∑ k : Fin 50000,
            (Read.val_main_v45 (F := Ideal) x0 x1 x2 x3 (ix2 k j) - Read.val_main_v48 (F := Ideal) x0 x1 x2 x3 (ix1 j))
              * (Read.val_main_v45 (F := Ideal) x0 x1 x2 x3 (ix2 k j) - Read.val_main_v48 (F := Ideal) x0 x1 x2 x3 (ix1 j)))
          (Ideal.ofBits .f32 0x47435000#32) := by
  have e : ∀ k : Fin 50000, Read.idx_main_v53 (ix1 j) k = ix2 k j := fun k =>
    funext fun a => Fin.ext (by match a with | ⟨0, _⟩ => rfl | ⟨1, _⟩ => rfl)
  rw [Read.val_main_v55_apply, Read.val_main_v53_apply, Read.val_main_v54_apply, Read.val_main_cst_11_apply,
    Read.val_main_cst_10_apply, Ideal.hostDivf_def, Ideal.ofBits_def, Ideal.ofBits_def, Ideal.ofBits_zero_f32, zero_add]
  refine congrArg (fun s => Ideal.div s (Ideal.ofBits .f32 0x47435000#32)) (Finset.sum_congr rfl fun k _ => ?_)
  rw [e k, Read.val_main_v52_apply, Ideal.mulf_def, centered_at]

/-- The column scale: the reciprocal square root of the variance plus ε. -/
theorem scale_at (x0 : S50000x128.Idx → EReal) (x1 : IVec S2x800000 32) (x2 : S128x256.Idx → EReal) (x3 : S256.Idx → EReal)
    (j : Fin 256) :
    Read.val_main_v61 (F := Ideal) x0 x1 x2 x3 (ix1 j)
      = Ideal.rsqrt (Read.val_main_v55 (F := Ideal) x0 x1 x2 x3 (ix1 j) + Ideal.ofBits .f32 0x3727C5AC#32) := by
  rw [Read.val_main_v61_apply, Ideal.hostUnary_rsqrt_def, Read.val_main_v60_apply, Ideal.addf_def, Read.val_main_v59_apply,
    Read.val_main_cst_12_apply, Ideal.ofBits_def]

/-- A centered entry, as the normalization reads it: the entry minus its column's mean. -/
theorem centered_out_at (x0 : S50000x128.Idx → EReal) (x1 : IVec S2x800000 32) (x2 : S128x256.Idx → EReal) (x3 : S256.Idx → EReal)
    (r : Fin 50000) (j : Fin 256) :
    Read.val_main_v58 (F := Ideal) x0 x1 x2 x3 (ix2 r j)
      = Read.val_main_v45 (F := Ideal) x0 x1 x2 x3 (ix2 r j) - Read.val_main_v48 (F := Ideal) x0 x1 x2 x3 (ix1 j) := by
  have e : Read.idx_main_v56 (Read.idx_main_v57 (ix2 r j)) = ix1 j :=
    funext fun a => Fin.ext (by match a with | ⟨0, _⟩ => rfl)
  rw [Read.val_main_v58_apply, Read.val_main_v57_apply, Read.val_main_v56_apply, Ideal.subf_def, e]

/-- The reference's normalized and clamped layer read at row r, column j: with Y the first aggregated layer, μ the
    column mean (∑ₖ Y[k, j]) / N and v the mean of the squared deviations (∑ₖ (Y[k, j] − μ)²) / N, the entry is
    max (((Y[r, j] − μ) · rsqrt (v + ε)) · γ[j] + β[j]) 0. -/
theorem ref_at (x0 : S50000x128.Idx → EReal) (x1 : IVec S2x800000 32) (x2 : S128x256.Idx → EReal) (x3 x4 x5 : S256.Idx → EReal)
    (r : Fin 50000) (j : Fin 256) :
    Read.val_main_v71 (F := Ideal) x0 x1 x2 x3 x4 x5 (ix2 r j)
      = max ((Read.val_main_v45 (F := Ideal) x0 x1 x2 x3 (ix2 r j)
                - Ideal.div (∑ k : Fin 50000, Read.val_main_v45 (F := Ideal) x0 x1 x2 x3 (ix2 k j)) (Ideal.ofBits .f32 0x47435000#32))
              * Ideal.rsqrt (Ideal.div (∑ k : Fin 50000,
                    (Read.val_main_v45 (F := Ideal) x0 x1 x2 x3 (ix2 k j)
                      - Ideal.div (∑ k : Fin 50000, Read.val_main_v45 (F := Ideal) x0 x1 x2 x3 (ix2 k j)) (Ideal.ofBits .f32 0x47435000#32))
                    * (Read.val_main_v45 (F := Ideal) x0 x1 x2 x3 (ix2 k j)
                      - Ideal.div (∑ k : Fin 50000, Read.val_main_v45 (F := Ideal) x0 x1 x2 x3 (ix2 k j)) (Ideal.ofBits .f32 0x47435000#32)))
                  (Ideal.ofBits .f32 0x47435000#32) + Ideal.ofBits .f32 0x3727C5AC#32)
              * x4 (ix1 j) + x5 (ix1 j)) 0 := by
  have e63 : Read.idx_main_v62 (Read.idx_main_v63 (ix2 r j)) = ix1 j :=
    funext fun a => Fin.ext (by match a with | ⟨0, _⟩ => rfl)
  have e66 : Read.idx_main_v65 (Read.idx_main_v66 (ix2 r j)) = ix1 j :=
    funext fun a => Fin.ext (by match a with | ⟨0, _⟩ => rfl)
  have e69 : Read.idx_main_v68 (Read.idx_main_v69 (ix2 r j)) = ix1 j :=
    funext fun a => Fin.ext (by match a with | ⟨0, _⟩ => rfl)
  rw [Read.val_main_v71_apply, Ideal.maximumf_def, Read.val_main_call0_v0_apply, Read.val_main_call0_cst_apply,
    Ideal.ofBits_def, Ideal.ofBits_zero_f32,
    Read.val_main_v70_apply, Ideal.addf_def, Read.val_main_v69_apply, Read.val_main_v68_apply, e69,
    Read.val_main_v67_apply, Ideal.mulf_def, Read.val_main_v66_apply, Read.val_main_v65_apply, e66,
    Read.val_main_v64_apply, Ideal.mulf_def, Read.val_main_v63_apply, Read.val_main_v62_apply, e63,
    centered_out_at, scale_at, var_at, mean_at]

end Cert.Bridge

end
-- ==== Proof.KNorm.lean ====
import proofs.«116100_j7851200217412_2_alg».proof.Proof.KWalk
import proofs.«116100_j7851200217412_2_alg».proof.Proof.ColumnSums
import proofs.«116100_j7851200217412_2_alg».proof.Proof.NormalizeBlocks
import proofs.«116100_j7851200217412_2_alg».proof.Proof.Variance
import proofs.«116100_j7851200217412_2_alg».proof.Proof.RefNorm
import Idealize.ShloMosaic.Lib.Pipeline.Value

set_option maxRecDepth 16384

/-!
  The batch normalization of the first aggregated layer, followed by the clamp at zero, computed two ways. The kernel
  program accumulates the column sums and the column sums of squares in one pass, forms the mean and the one-pass
  variance (clamped at zero) on the host, and normalizes block by block; the reference takes the mean, then the mean
  of the squared deviations, and normalizes the whole array. On real data the two variances are the same number, and
  every other step is the same operation, so the two results agree entry by entry.
-/

noncomputable section

namespace Cert.KernelIdeal.Gen

open Idealize.ShloMosaic Idealize.ShloMosaic.TcCoe Idealize.SL.Sem Idealize.ShloMosaic.StableHlo Idealize.ShloMosaic.ValueIdx
open Cert.ReferenceIdeal (Read.val_main_v45)

variable (m : (ℓ : Loc nD τ sig) → Buf (Elt Ideal) ℓ) (ρ : Dev nD → PrngReg)

/-- The first aggregated layer, the array both normalizations start from. -/
abbrev Y (c : Dev nD) : S50000x256.Idx → EReal :=
  Cert.ReferenceIdeal.Read.val_main_v45 (F := Ideal) (X0 m c) (X1 m c) (X2 m c) (X3 m c)

/-- Column j's sum. -/
abbrev colSum (c : Dev nD) (j : Fin 256) : EReal := ∑ r : Fin 50000, Y m c (ix2 r j)

/-- The kernel program's mean: the accumulated column sum divided by the number of rows. -/
theorem mean_at (c : Dev nD) (j : Fin 256) :
    (V5 m ρ c main_v48 : S1x256.Idx → EReal) (ix2 (0 : Fin 1) j)
      = Ideal.div (colSum m c j) (Ideal.ofBits .f32 0x47435000#32) := by
  refine (congrFun (host2_v48 (W4 m ρ c)) (ix2 (0 : Fin 1) j)).trans ?_
  show Ideal.div ((W4 m ρ c (Proc.devRef .tc main_v46_0) : S1x256.Idx → EReal) (ix2 (0 : Fin 1) j)) (Ideal.ofBits .f32 0x47435000#32) = _
  refine congrArg (Ideal.div · _) ?_
  exact Cert.KernelIdeal.Bridge.arr1_sum (V3 m ρ) c _ _ (W4_v46_0 m ρ c) (W3_v45 m ρ c).symm j

/-- Column j's sum of squares. -/
abbrev colSumSq (c : Dev nD) (j : Fin 256) : EReal := ∑ r : Fin 50000, Y m c (ix2 r j) * Y m c (ix2 r j)

/-- The kernel program's variance: the mean of the squares minus the square of the mean, clamped at zero. -/
theorem var_at (c : Dev nD) (j : Fin 256) :
    (V5 m ρ c main_v54 : S1x256.Idx → EReal) (ix2 (0 : Fin 1) j)
      = max (Ideal.div (colSumSq m c j) (Ideal.ofBits .f32 0x47435000#32)
              - Ideal.div (colSum m c j) (Ideal.ofBits .f32 0x47435000#32) * Ideal.div (colSum m c j) (Ideal.ofBits .f32 0x47435000#32)) 0 := by
  refine (congrFun (host2_v54 (W4 m ρ c)) (ix2 (0 : Fin 1) j)).trans ?_
  show max (Ideal.div ((W4 m ρ c (Proc.devRef .tc main_v46_1) : S1x256.Idx → EReal) (ix2 (0 : Fin 1) j)) (Ideal.ofBits .f32 0x47435000#32)
        - Ideal.div ((W4 m ρ c (Proc.devRef .tc main_v46_0) : S1x256.Idx → EReal) (ix2 (0 : Fin 1) j)) (Ideal.ofBits .f32 0x47435000#32)
          * Ideal.div ((W4 m ρ c (Proc.devRef .tc main_v46_0) : S1x256.Idx → EReal) (ix2 (0 : Fin 1) j)) (Ideal.ofBits .f32 0x47435000#32))
      (Ideal.ofBits .f32 0x00000000#32) = _
  rw [Cert.KernelIdeal.Bridge.arr1_sum (V3 m ρ) c _ _ (W4_v46_0 m ρ c) (W3_v45 m ρ c).symm j,
    Cert.KernelIdeal.Bridge.arr1_sumsq (V3 m ρ) c _ _ (W4_v46_1 m ρ c) (W3_v45 m ρ c).symm j, Ideal.ofBits_zero_f32]

/-- The scale, stored as a one-row matrix, read at column j. -/
theorem gamma_at (c : Dev nD) (j : Fin 256) :
    (V5 m ρ c main_v55 : S1x256.Idx → EReal) (ix2 (0 : Fin 1) j) = (X4 m c : S256.Idx → EReal) (ix1 j) := by
  refine (congrFun (host2_v55 (W4 m ρ c)) (ix2 (0 : Fin 1) j)).trans ?_
  rw [W4_arg4 m ρ c]
  refine (shapeCast_apply _ _ _ (ix1 j) ?_).trans rfl
  rw [Shape.rowMajor_val_one, Shape.rowMajor_val_two]
  show j.val = (0 : Fin 1).val * 256 + j.val
  simp

/-- The shift, stored as a one-row matrix, read at column j. -/
theorem beta_at (c : Dev nD) (j : Fin 256) :
    (V5 m ρ c main_v56 : S1x256.Idx → EReal) (ix2 (0 : Fin 1) j) = (X5 m c : S256.Idx → EReal) (ix1 j) := by
  refine (congrFun (host2_v56 (W4 m ρ c)) (ix2 (0 : Fin 1) j)).trans ?_
  rw [W4_arg5 m ρ c]
  refine (shapeCast_apply _ _ _ (ix1 j) ?_).trans rfl
  rw [Shape.rowMajor_val_one, Shape.rowMajor_val_two]
  show j.val = (0 : Fin 1).val * 256 + j.val
  simp

/-- The normalizing region leaves what the reference's normalization and clamp compute, when the aggregated layer
    has only real entries. -/
theorem norm_eq (c : Dev nD) (hY : Cert.Bridge.IsReal (Y m c)) :
    ((dat2 (V5 m ρ) c).arrAt 5 cfg2.N : S50000x256.Idx → EReal)
      = Cert.ReferenceIdeal.Read.val_main_v71 (F := Ideal) (X0 m c) (X1 m c) (X2 m c) (X3 m c) (X4 m c) (X5 m c) := by
  funext i
  obtain ⟨r, j, rfl⟩ : ∃ (r : Fin 50000) (j : Fin 256), i = ix2 r j := ⟨i 0, i 1, eq_ix2 i⟩
  refine (Cert.KernelIdeal.Bridge.arr2 (V5 m ρ) c _ _ _ _ _ _ rfl (W5_v45 m ρ c).symm rfl rfl rfl rfl r j).trans ?_
  rw [mean_at m ρ c j, var_at m ρ c j, gamma_at m ρ c j, beta_at m ρ c j, Cert.Bridge.ref_at]
  rw [Cert.Bridge.var_eq (fun r => Y m c (ix2 r j)) (fun r => hY (ix2 r j))]

end Cert.KernelIdeal.Gen

end
-- ==== Proof.KRun.lean ====
import proofs.«116100_j7851200217412_2_alg».proof.Proof.Gen.KernelIdeal.Frame

set_option maxRecDepth 16384

/-!
  The kernel program's run with its RESULT named. The run of the four regions among the host stretches ends, on
  every core, with every unscoped buffer at the last boundary's contents `W8`; read at the result buffer this says
  what the program returns, and read at the argument buffers that they are unchanged.
-/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last boundary's contents and the argument arrays end as launched. -/
theorem run_value : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Gen

end
-- ==== Proof.Finite.lean ====
import proofs.«116100_j7851200217412_2_alg».proof.Proof.Gen.ReferenceIdeal.Read
import proofs.«116100_j7851200217412_2_alg».proof.Proof.Gen.Pre_finite_inputs
import proofs.«116100_j7851200217412_2_alg».proof.Proof.Basics
import Idealize.ShloMosaic.Lib.ValueIdx
import Idealize.ShloMosaic.Lib.ReduceAll
import Idealize.ShloMosaic.PureOps.Ideal.Laws

noncomputable section

open Idealize.ShloMosaic Idealize.ShloMosaic.ValueIdx

namespace Cert.Bridge

open Cert.ReferenceIdeal

/-! ## The precondition read back -/

/-- The pattern of +inf denotes the top element. -/
theorem ofBits_inf_f32 : Ideal.ofBits .f32 0x7F800000#32 = ⊤ := by
  simp [Ideal.ofBits, Ideal.ieee]

/-- An extended real whose absolute value max(a, −a) is below +inf is a real number: at either infinity the absolute
    value is the top element. -/
theorem real_of_abs_lt_inf {a : EReal}
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | coe r => exact ⟨r, rfl⟩
  | top => simp [Ideal.cmp] at h

/-- One conjunct of the precondition, all(|x| < +inf) as a reduction by "and" of the entrywise comparison, says that
    every entry of x is a real number. -/
theorem isReal_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : S.Idx → EReal) (j : Cert.Pre_finite_inputs.S_.Idx)
    (e : Host.reduce IntOp.andi (cmpf .olt (Host.absf (F := Ideal) (φ := .f32) x)
          (broadcastInDim S ![] hb (constant (F := Ideal) Cert.Pre_finite_inputs.S_ .f32 0x7F800000#32)))
          (constantI Cert.Pre_finite_inputs.S_ 1 1#1) hr hu j = 1#1) : IsReal x := fun i => by
  haveI : Subsingleton Cert.Pre_finite_inputs.S_.Idx := ⟨fun a b => funext fun d => d.elim0⟩
  have h1 := Host.reduce_andi_all _ _ hr hu j e i
  exact real_of_abs_lt_inf h1

/-- The precondition says of each float argument that every entry is a real number. -/
theorem pre_real [Cert.Pre_finite_inputs.Facts] (a0 : S50000x128.Idx → EReal) (a1 : IVec S2x800000 32) (a2 : S128x256.Idx → EReal)
    (a3 a4 a5 : S256.Idx → EReal) (a6 : S256x128.Idx → EReal) (a7 : S128.Idx → EReal)
    (h : Cert.Pre_finite_inputs.fn (F := Ideal) a0 a1 a2 a3 a4 a5 a6 a7 = fun _ => 1#1) :
    IsReal a0 ∧ IsReal a2 ∧ IsReal a3 ∧ IsReal a4 ∧ IsReal a5 ∧ IsReal a6 ∧ IsReal a7 := by
  -- the precondition at its one index is a conjunction of seven conjuncts, one per float argument
  have h' := congrFun h ValueIdx.ix0
  dsimp only [Cert.Pre_finite_inputs.fn, Cert.Pre_finite_inputs.fn_part1] at h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨e0, e2⟩ := IntOp.andi_eq_one.1 h'
  exact ⟨isReal_of_all _ _ _ a0 _ e0, isReal_of_all _ _ _ a2 _ e2, isReal_of_all _ _ _ a3 _ e3,
    isReal_of_all _ _ _ a4 _ e4, isReal_of_all _ _ _ a5 _ e5, isReal_of_all _ _ _ a6 _ e6, isReal_of_all _ _ _ a7 _ e7⟩

/-! ## Real numbers are closed under the operations of the first aggregated layer -/

/-- The pattern of 1.0 denotes the real number one. -/
theorem ofBits_one_f32 : Ideal.ofBits .f32 0x3F800000#32 = 1 := by
  simp [Ideal.ofBits, Ideal.ieee, -EReal.coe_mul]; norm_num

/-- A product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A finite sum of real numbers is a real number. -/
theorem real_sum {ι : Type*} (s : Finset ι) (f : ι → EReal) (h : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    rw [Finset.sum_insert ha]
    exact real_add (h a (Finset.mem_insert_self a s)) (ih fun j hj => h j (Finset.mem_insert_of_mem hj))

/-- The reciprocal square root of a positive real number is a real number. -/
theorem real_rsqrt {a : EReal} (ha : ∃ m : ℝ, 0 < m ∧ a = (m : EReal)) : ∃ r : ℝ, Ideal.rsqrt a = (r : EReal) := by
  obtain ⟨m, hm, rfl⟩ := ha
  exact ⟨(Real.sqrt m)⁻¹, by rw [Ideal.rsqrt_coe, if_neg (not_lt.mpr hm.le), if_neg hm.ne']⟩

/-- The maximum of a real number and one is a positive real number. -/
theorem real_max_one {a : EReal} (ha : ∃ r : ℝ, a = (r : EReal)) : ∃ m : ℝ, 0 < m ∧ max a 1 = (m : EReal) := by
  obtain ⟨r, rfl⟩ := ha
  refine ⟨max r 1, lt_of_lt_of_le one_pos (le_max_right r 1), ?_⟩
  rcases le_total r 1 with h | h
  · rw [max_eq_right h, max_eq_right (by exact_mod_cast h), EReal.coe_one]
  · rw [max_eq_left h, max_eq_left (by exact_mod_cast h)]

/-- A gather reads entries of its operand, so it has only real entries when the operand does. -/
theorem isReal_gather {s si t : Shape} {w : Nat} (d : GatherDims s si t) (x : s.Idx → EReal) (idx : IVec si w)
    (hx : IsReal x) : IsReal (Host.gather d x idx) := fun j => hx (d.operandIdx j idx)

/-- An accumulating scatter adds to each entry of its operand a finite sum of entries of the updates, so it has only real
    entries when the operand and the updates do. -/
theorem isReal_scatterAdd {s si u : Shape} {w : Nat} (d : ScatterDims s si u) (x : s.Idx → EReal) (idx : IVec si w)
    (upd : u.Idx → EReal) (hx : IsReal x) (hu : IsReal upd) :
    IsReal (Host.scatterAdd (F := Ideal) (φ := .f32) d x idx upd) := fun i => by
  show ∃ r : ℝ, Ideal.hostScatterAdd d x idx upd i = (r : EReal)
  unfold Ideal.hostScatterAdd
  exact real_add (hx i) (real_sum _ _ fun j _ => hu j)

/-! ## The stages of the first aggregated layer, in program order -/

/-- The product of the features and the first weights: each entry is a finite sum of products. -/
theorem v4_real (x0 : S50000x128.Idx → EReal) (x2 : S128x256.Idx → EReal) (h0 : IsReal x0) (h2 : IsReal x2) :
    IsReal (Read.val_main_v4 (F := Ideal) x0 x2) := fun i => by
  rw [Read.val_main_v4_apply]
  exact real_sum _ _ fun k _ => real_mul (h0 _) (h2 _)

/-- The degree of each node: zero plus a finite sum of ones. -/
theorem v11_real (x1 : IVec S2x800000 32) : IsReal (Read.val_main_v11 (F := Ideal) x1) := by
  unfold Read.val_main_v11
  refine isReal_scatterAdd _ _ _ _ (fun i => ⟨0, ?_⟩) (fun i => ⟨1, ?_⟩)
  · rw [Read.val_main_v9_apply, Read.val_main_cst_0_apply, Ideal.ofBits_def, Ideal.ofBits_zero_f32, EReal.coe_zero]
  · rw [Read.val_main_v8_apply, Read.val_main_cst_apply, Ideal.ofBits_def, ofBits_one_f32, EReal.coe_one]

/-- The normalization of each node: the reciprocal square root of the degree clamped below at one. -/
theorem v14_real (x1 : IVec S2x800000 32) : IsReal (Read.val_main_v14 (F := Ideal) x1) := fun i => by
  rw [Read.val_main_v14_apply, Ideal.hostUnary_rsqrt_def, Read.val_main_v13_apply, Ideal.maximumf_def,
    Read.val_main_v12_apply, Read.val_main_cst_1_apply, Ideal.ofBits_def, ofBits_one_f32]
  exact real_rsqrt (real_max_one (v11_real x1 i))

/-- The normalization of each edge: the product of the normalizations of its two ends. -/
theorem v29_real (x1 : IVec S2x800000 32) : IsReal (Read.val_main_v29 (F := Ideal) x1) := fun i => by
  rw [Read.val_main_v29_apply, Ideal.mulf_def]
  exact real_mul (isReal_gather _ _ _ (v14_real x1) i) (isReal_gather _ _ _ (v14_real x1) i)

/-- The message along each edge: the source's row of the product, scaled by the edge's normalization. -/
theorem v39_real (x0 : S50000x128.Idx → EReal) (x1 : IVec S2x800000 32) (x2 : S128x256.Idx → EReal)
    (h0 : IsReal x0) (h2 : IsReal x2) : IsReal (Read.val_main_v39 (F := Ideal) x0 x1 x2) := fun i => by
  rw [Read.val_main_v39_apply, Ideal.mulf_def, Read.val_main_v38_apply, Read.val_main_v37_apply]
  exact real_mul (isReal_gather _ _ _ (v4_real x0 x2 h0 h2) i) (v29_real x1 _)

/-- The first aggregated layer (the product of the features and the first weights, gathered along the edges, scaled by
    the edge normalization, summed into the destination nodes, plus the bias) has only real entries when the
    features, the weights and the bias do: every step is a finite sum or product of real numbers, and the
    normalization is the reciprocal square root of a degree that is at least one. -/
theorem agg_real (x0 : S50000x128.Idx → EReal) (x1 : IVec S2x800000 32) (x2 : S128x256.Idx → EReal) (x3 : S256.Idx → EReal)
    (h0 : IsReal x0) (h2 : IsReal x2) (h3 : IsReal x3) :
    IsReal (Read.val_main_v45 (F := Ideal) x0 x1 x2 x3) := fun i => by
  rw [Read.val_main_v45_apply, Ideal.addf_def, Read.val_main_v44_apply, Read.val_main_v43_apply]
  refine real_add ?_ (h3 _)
  unfold Read.val_main_v42
  refine isReal_scatterAdd _ _ _ _ (fun j => ⟨0, ?_⟩) (v39_real x0 x1 x2 h0 h2) i
  rw [Read.val_main_v40_apply, Read.val_main_cst_7_apply, Ideal.ofBits_def, Ideal.ofBits_zero_f32, EReal.coe_zero]

end Cert.Bridge

end
-- ==== Proof.KFinal.lean ====
import proofs.«116100_j7851200217412_2_alg».proof.Proof.KNorm
import proofs.«116100_j7851200217412_2_alg».proof.Proof.KRun
import proofs.«116100_j7851200217412_2_alg».proof.Proof.Finite
import proofs.«116100_j7851200217412_2_alg».proof.Defs

set_option maxRecDepth 16384

/-!
  The kernel program's result. After the normalizing region the activations are the reference's; the second product
  region multiplies them by the second weights, and the last host stretch gathers, scales, sums and shifts the
  product exactly as the reference does. So under the precondition the program returns the reference's result term
  of the argument arrays.
-/

noncomputable section

namespace Cert.KernelIdeal.Gen

open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The second product region leaves the product of the normalized activations and the second weights. -/
theorem W7_v58 (c : Dev nD) (hY : Cert.Bridge.IsReal (Y m c)) :
    W7 m ρ c (Proc.devRef .tc main_v58)
      = Cert.ReferenceIdeal.Read.val_main_v72 (F := Ideal) (X0 m c) (X1 m c) (X2 m c) (X3 m c) (X4 m c) (X5 m c) (X6 m c) := by
  refine (W7_arr m ρ c 2).trans ((Cert.KernelIdeal.Bridge.arr3 (V6 m ρ) c).trans ?_)
  rw [show V6 m ρ c main_v57 = _ from (W6_v57 m ρ c).trans (norm_eq m ρ c hY),
    show V6 m ρ c main_arg6 = X6 m c from W6_arg6 m ρ c]
  rfl

/-- The program's result buffer at the last boundary is the reference's result term of the launch contents. -/
theorem W8_v74 (c : Dev nD) (hY : Cert.Bridge.IsReal (Y m c)) :
    W8 m ρ c (Proc.devRef .tc main_v74)
      = Cert.ReferenceIdeal.Read.val_main_v113 (F := Ideal) (X0 m c) (X1 m c) (X2 m c) (X3 m c) (X4 m c) (X5 m c) (X6 m c) (X7 m c) :=
  host4_v74 (W7 m ρ c) _ _ _ _ _ _ _ _ (W7_v58 m ρ c hY) (W7_v5 m ρ c) (W7_v6 m ρ c) (W7_v28 m ρ c) (W7_arg7 m ρ c)

/-- Under the precondition the first aggregated layer has only real entries. -/
theorem Y_real (hpre : Cert.Pre_KernelIdeal m) (c : Dev nD) : Cert.Bridge.IsReal (Y m c) := by
  obtain ⟨h0, h2, h3, -⟩ := Cert.Bridge.pre_real _ _ _ _ _ _ _ _ (hpre c)
  exact Cert.Bridge.agg_real _ _ _ _ h0 h2 h3

/-- Under the precondition every weakly fair execution of the kernel program terminates without a fault, with the
    result buffer at the reference's result term of the launch contents and the argument arrays unchanged. -/
theorem run_result (hpre : Cert.Pre_KernelIdeal m) :
    θ_run defs (onTc (τ := τ) (main (F := Ideal))) ⟨m, fun _ => 0, ρ⟩ (fun r => ∀ c : Dev nD,
      r.2.mem ((c.tc : Thread nD τ).loc main_v74)
        = Cert.ReferenceIdeal.Read.val_main_v113 (F := Ideal) (X0 m c) (X1 m c) (X2 m c) (X3 m c) (X4 m c) (X5 m c) (X6 m c) (X7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W8_v74 m ρ c (Y_real m hpre c)), (h c).2⟩) (run_value m ρ)

end Cert.KernelIdeal.Gen

end
-- ==== Proof.lean ====
/-
  The graph-convolution network of two layers with a batch normalization between them, as a tiled kernel program
  against its array reference, over the extended reals.

  Both programs compute, from the node features x, the edge list, and the weights:
    h₁ = x · W₁;  a₁ = D^(-1/2) (A + I) D^(-1/2) h₁ + b₁  (gather along the sources, scale by the edge normalization,
    sum into the destinations);  y = max (batchnorm (a₁) · γ + β, 0);  h₂ = y · W₂;  out = D^(-1/2) (A + I) D^(-1/2) h₂ + b₂.
  The kernel program tiles the two matrix products by row blocks (a block product into a zero accumulator is the plain
  sum of products, and blocks of rows tile the array), accumulates the column sums and sums of squares of a₁ over row
  blocks, takes the variance in one pass as (∑ a₁²)/N − ((∑ a₁)/N)² clamped at zero, and normalizes block by block.
  The reference takes the two-pass variance (∑ (a₁ − μ)²)/N. The gather, scale and scatter steps are the same host
  operations in both programs. Under the precondition every float input is finite, so a₁ — finite sums of products of
  finite numbers, the normalization being the reciprocal square root of a degree that is at least one — has only real
  entries, and on real data the one-pass variance equals the two-pass one and is nonnegative. Everything else is the
  same operation applied to equal operands, so the two results are equal entry by entry.

  The three frames are the programs' runs with the result forgotten; the idealization rewrote nothing.
-/
import proofs.«116100_j7851200217412_2_alg».proof.Defs
import proofs.«116100_j7851200217412_2_alg».proof.Proof.Gen.Kernel
import proofs.«116100_j7851200217412_2_alg».proof.Proof.Gen.Kernel.Frame
import proofs.«116100_j7851200217412_2_alg».proof.Proof.Gen.KernelIdeal
import proofs.«116100_j7851200217412_2_alg».proof.Proof.Gen.KernelIdeal.Frame
import proofs.«116100_j7851200217412_2_alg».proof.Proof.Gen.ReferenceIdeal
import proofs.«116100_j7851200217412_2_alg».proof.Proof.Gen.Pre_finite_inputs
import proofs.«116100_j7851200217412_2_alg».proof.Proof.Gen.ReferenceIdeal.Run
import proofs.«116100_j7851200217412_2_alg».proof.Proof.Gen.ReferenceIdeal.Read
import proofs.«116100_j7851200217412_2_alg».proof.Proof.KFinal
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition both programs end with the reference's result term of the (agreeing) argument arrays. -/
theorem algebraic : Cert.algebraic_KernelIdeal_ReferenceIdeal := by
  intro m ρ m' ρ' hpre hagree
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Gen.run_result m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v113_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
